-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x8192 : Shape := ⟨3, ![8, 256, 8192]⟩
abbrev S256x256x3 : Shape := ⟨3, ![256, 256, 3]⟩
abbrev S256 : Shape := ⟨1, ![256]⟩
abbrev S_ : Shape := ⟨0, ![]⟩

class Facts : Prop where
  bcast_S_S8x256x8192 : S_.BroadcastsInDim S8x256x8192 (![] : Fin 0 → Fin S8x256x8192.rank)
  reducesTo_S8x256x8192_S_d0_1_2 : S8x256x8192.ReducesTo [0, 1, 2] S_
  h_S_ : 0 < S_.numel
  bcast_S_S256x256x3 : S_.BroadcastsInDim S256x256x3 (![] : Fin 0 → Fin S256x256x3.rank)
  reducesTo_S256x256x3_S_d0_1_2 : S256x256x3.ReducesTo [0, 1, 2] S_
  bcast_S_S256 : S_.BroadcastsInDim S256 (![] : Fin 0 → Fin S256.rank)
  reducesTo_S256_S_d0 : S256.ReducesTo [0] S_

variable [Facts]

def fn {F : FTy → Type} [FloatOps F] (main_arg0 : FVec F S8x256x8192 .f32) (main_arg1 : FVec F S256x256x3 .f32) (main_arg2 : FVec F S256 .f32) : IVec S_ 1 :=
  let main_v0 : FVec F S8x256x8192 .f32 := Host.absf main_arg0
  let main_cst : FVec F S_ .f32 := constant S_ .f32 0x7F800000#32
  let main_v1 : FVec F S8x256x8192 .f32 := broadcastInDim S8x256x8192 ![] bcast_S_S8x256x8192 main_cst
  let main_v2 : IVec S8x256x8192 1 := cmpf .olt main_v0 main_v1
  let main_c : IVec S_ 1 := constantI S_ 1 1#1
  let main_v3 : IVec S_ 1 := (fun x v => Host.reduce IntOp.andi x v reducesTo_S8x256x8192_S_d0_1_2 h_S_) main_v2 main_c
  let main_v4 : FVec F S256x256x3 .f32 := Host.absf main_arg1
  let main_cst_0 : FVec F S_ .f32 := constant S_ .f32 0x7F800000#32
  let main_v5 : FVec F S256x256x3 .f32 := broadcastInDim S256x256x3 ![] bcast_S_S256x256x3 main_cst_0
  let main_v6 : IVec S256x256x3 1 := cmpf .olt main_v4 main_v5
  let main_c_1 : IVec S_ 1 := constantI S_ 1 1#1
  let main_v7 : IVec S_ 1 := (fun x v => Host.reduce IntOp.andi x v reducesTo_S256x256x3_S_d0_1_2 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S8x256x8192 : Shape := ⟨3, ![8, 256, 8192]⟩
abbrev S256x256x3 : Shape := ⟨3, ![256, 256, 3]⟩
abbrev S256 : Shape := ⟨1, ![256]⟩
abbrev S3x256x256 : Shape := ⟨3, ![3, 256, 256]⟩
abbrev S256x1 : Shape := ⟨2, ![256, 1]⟩
abbrev S1x256x8192 : Shape := ⟨3, ![1, 256, 8192]⟩
abbrev S256x8192 : Shape := ⟨2, ![256, 8192]⟩
abbrev S1x256x256 : Shape := ⟨3, ![1, 256, 256]⟩
abbrev S256x256 : Shape := ⟨2, ![256, 256]⟩
abbrev S256x2 : Shape := ⟨2, ![256, 2]⟩
abbrev S256x8190 : Shape := ⟨2, ![256, 8190]⟩
abbrev S256x8191 : Shape := ⟨2, ![256, 8191]⟩

abbrev nBuf : Space → Nat
  | .hbm => 6
  | .vmem => 6
  | .smem => 0
  | _ => 0

abbrev bufTy : (tb : Table) → Fin (tcTables nBuf tb) → BufTy
  | .hbm, ⟨0, _⟩ => ⟨S8x256x8192, .f32⟩
  | .hbm, ⟨1, _⟩ => ⟨S256x256x3, .f32⟩
  | .hbm, ⟨2, _⟩ => ⟨S256, .f32⟩
  | .hbm, ⟨3, _⟩ => ⟨S3x256x256, .f32⟩
  | .hbm, ⟨4, _⟩ => ⟨S256x1, .f32⟩
  | .hbm, ⟨5, _⟩ => ⟨S8x256x8192, .f32⟩
  | .local _ .vmem, ⟨0, _⟩ => ⟨S1x256x8192, .f32⟩
  | .local _ .vmem, ⟨1, _⟩ => ⟨S1x256x8192, .f32⟩
  | .local _ .vmem, ⟨2, _⟩ => ⟨S3x256x256, .f32⟩
  | .local _ .vmem, ⟨3, _⟩ => ⟨S256x1, .f32⟩
  | .local _ .vmem, ⟨4, _⟩ => ⟨S1x256x8192, .f32⟩
  | .local _ .vmem, ⟨5, _⟩ => ⟨S1x256x8192, .f32⟩
  | _, _ => ⟨S8x256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S256x256x3_S3x256x256_2_0_1 : S256x256x3.Transposes [2, 0, 1] S3x256x256
  shapeCasts_S256_S256x1 : S256.ShapeCasts S256x1
  inb_S1x256x8192_S1x256x8192_0_0_0 : ∀ a, (![0, 0, 0] : Fin 3 → Nat) a + S1x256x8192.size a ≤ S1x256x8192.size a
  h_S1x256x8192 : 0 < S1x256x8192.numel
  shapeCasts_S1x256x8192_S256x8192 : S1x256x8192.ShapeCasts S256x8192
  inb_S3x256x256_S1x256x256_2_0_0 : ∀ a, (![2, 0, 0] : Fin 3 → Nat) a + S1x256x256.size a ≤ S3x256x256.size a
  h_S1x256x256 : 0 < S1x256x256.numel
  shapeCasts_S1x256x256_S256x256 : S1x256x256.ShapeCasts S256x256
  slices_S256x8192_o0_0_S256x8190 : S256x8192.Slices ![0, 0] S256x8190
  concatenates_S256x2_S256x8190_S256x8192_d1 : Shape.Concatenates [S256x2, S256x8190] S256x8192 1
  inb_S3x256x256_S1x256x256_0_0_0 : ∀ a, (![0, 0, 0] : Fin 3 → Nat) a + S1x256x256.size a ≤ S3x256x256.size a
  slices_S256x8192_o0_0_S256x8191 : S256x8192.Slices ![0, 0] S256x8191
  concatenates_S256x1_S256x8191_S256x8192_d1 : Shape.Concatenates [S256x1, S256x8191] S256x8192 1
  inb_S3x256x256_S1x256x256_1_0_0 : ∀ a, (![1, 0, 0] : Fin 3 → Nat) a + S1x256x256.size a ≤ S3x256x256.size a
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x8192 : S256x1.Broadcasts S256x8192
  shapeCasts_S256x8192_S1x256x8192 : S256x8192.ShapeCasts S1x256x8192
  dot_S256x256_S256x8192_S256x8192_1_0_0_1_n_n_wf : DotDims.WF S256x256 S256x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x8192.size a ≤ S8x256x8192.size a
  hwx0_0 : ∀ i : grid0.Coords, EltTy.bits .f32 = 32 ∨ (Rect.block (s := S8x256x8192) S1x256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x256x256.size a ≤ S3x256x256.size a
  hwx0_1 : ∀ i : grid0.Coords, EltTy.bits .f32 = 32 ∨ (Rect.block (s := S3x256x256) S3x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x8192.size a ≤ S8x256x8192.size a
  hwx0_3 : ∀ i : grid0.Coords, EltTy.bits .f32 = 32 ∨ (Rect.block (s := S8x256x8192) S1x256x8192.size (cc0_transform_3 i) (hinb0_3 i)).WholeWords (EltTy.packing .f32)

variable [Facts₀]

def dot_S256x256_S256x8192_S256x8192_1_0_0_1_n_n : DotDims S256x256 S256x8192 S256x8192 where
  lhsContracting := [1]
  rhsContracting := [0]
  lhsNonContracting := [0]
  rhsNonContracting := [1]
  lhsBatch := []
  rhsBatch := []
  wf := dot_S256x256_S256x8192_S256x8192_1_0_0_1_n_n_wf

abbrev win0_0 : Pipeline.Window sig grid0 :=
  Pipeline.Window.ofSpec (Memref.whole main_arg0) S1x256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x256x8192 : Shape := ⟨3, ![8, 256, 8192]⟩
abbrev S256x256x3 : Shape := ⟨3, ![256, 256, 3]⟩
abbrev S256 : Shape := ⟨1, ![256]⟩
abbrev S256x3x256 : Shape := ⟨3, ![256, 3, 256]⟩
abbrev S256x768 : Shape := ⟨2, ![256, 768]⟩
abbrev S256x1 : Shape := ⟨2, ![256, 1]⟩
abbrev S1x256x2048 : Shape := ⟨3, ![1, 256, 2048]⟩
abbrev S1x256x128 : Shape := ⟨3, ![1, 256, 128]⟩
abbrev S768x2048 : Shape := ⟨2, ![768, 2048]⟩
abbrev S256x2048 : Shape := ⟨2, ![256, 2048]⟩
abbrev S256x128 : Shape := ⟨2, ![256, 128]⟩
abbrev S256x2176 : Shape := ⟨2, ![256, 2176]⟩

abbrev nBuf : Space → Nat
  | .hbm => 7
  | .vmem => 9
  | .smem => 0
  | _ => 0

abbrev bufTy : (tb : Table) → Fin (tcTables nBuf tb) → BufTy
  | .hbm, ⟨0, _⟩ => ⟨S8x256x8192, .f32⟩
  | .hbm, ⟨1, _⟩ => ⟨S256x256x3, .f32⟩
  | .hbm, ⟨2, _⟩ => ⟨S256, .f32⟩
  | .hbm, ⟨3, _⟩ => ⟨S256x3x256, .f32⟩
  | .hbm, ⟨4, _⟩ => ⟨S256x768, .f32⟩
  | .hbm, ⟨5, _⟩ => ⟨S256x1, .f32⟩
  | .hbm, ⟨6, _⟩ => ⟨S8x256x8192, .f32⟩
  | .local _ .vmem, ⟨0, _⟩ => ⟨S1x256x2048, .f32⟩
  | .local _ .vmem, ⟨1, _⟩ => ⟨S1x256x2048, .f32⟩
  | .local _ .vmem, ⟨2, _⟩ => ⟨S1x256x128, .f32⟩
  | .local _ .vmem, ⟨3, _⟩ => ⟨S1x256x128, .f32⟩
  | .local _ .vmem, ⟨4, _⟩ => ⟨S256x768, .f32⟩
  | .local _ .vmem, ⟨5, _⟩ => ⟨S256x1, .f32⟩
  | .local _ .vmem, ⟨6, _⟩ => ⟨S1x256x2048, .f32⟩
  | .local _ .vmem, ⟨7, _⟩ => ⟨S1x256x2048, .f32⟩
  | .local _ .vmem, ⟨8, _⟩ => ⟨S768x2048, .f32⟩
  | _, _ => ⟨S8x256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S256x256x3_S256x3x256_0_2_1 : S256x256x3.Transposes [0, 2, 1] S256x3x256
  shapeCasts_S256x3x256_S256x768 : S256x3x256.ShapeCasts S256x768
  shapeCasts_S256_S256x1 : S256.ShapeCasts S256x1
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  concatenates_S256x128_S256x2048_S256x2176_d1 : Shape.Concatenates [S256x128, S256x2048] S256x2176 1
  slices_S256x2176_o0_126_S256x2048 : S256x2176.Slices ![0, 126] S256x2048
  inb_S768x2048_S256x2048_0_0 : ∀ a, (![0, 0] : Fin 2 → Nat) a + S256x2048.size a ≤ S768x2048.size a
  h_S256x2048 : 0 < S256x2048.numel
  shapeCasts_S256x2048_S256x2048 : S256x2048.ShapeCasts S256x2048
  slices_S256x2176_o0_127_S256x2048 : S256x2176.Slices ![0, 127] S256x2048
  inb_S768x2048_S256x2048_256_0 : ∀ a, (![256, 0] : Fin 2 → Nat) a + S256x2048.size a ≤ S768x2048.size a
  slices_S256x2176_o0_128_S256x2048 : S256x2176.Slices ![0, 128] S256x2048
  inb_S768x2048_S256x2048_512_0 : ∀ a, (![512, 0] : Fin 2 → Nat) a + S256x2048.size a ≤ S768x2048.size a
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768x2048_S768x2048_0_0 : ∀ a, (![0, 0] : Fin 2 → Nat) a + S768x2048.size a ≤ S768x2048.size a
  h_S768x2048 : 0 < S768x2048.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2048 : S256x1.Broadcasts S256x2048
  shapeCasts_S256x2048_S1x256x2048 : S256x2048.ShapeCasts S1x256x2048
  dot_S256x768_S768x2048_S256x2048_1_0_0_1_n_n_wf : DotDims.WF S256x768 S768x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x256x8192.size a
  hwx0_0 : ∀ i : grid0.Coords, EltTy.bits .f32 = 32 ∨ (Rect.block (s := S8x256x8192) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x128.size a ≤ S8x256x8192.size a
  hwx0_1 : ∀ i : grid0.Coords, EltTy.bits .f32 = 32 ∨ (Rect.block (s := S8x256x8192) S1x256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x768.size a ≤ S256x768.size a
  hwx0_2 : ∀ i : grid0.Coords, EltTy.bits .f32 = 32 ∨ (Rect.block (s := S256x768) S256x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S8x256x8192.size a
  hwx0_4 : ∀ i : grid0.Coords, EltTy.bits .f32 = 32 ∨ (Rect.block (s := S8x256x8192) S1x256x2048.size (cc0_transform_4 i) (hinb0_4 i)).WholeWords (EltTy.packing .f32)

variable [Facts₀]

def dot_S256x768_S768x2048_S256x2048_1_0_0_1_n_n : DotDims S256x768 S768x2048 S256x2048 where
  lhsContracting := [1]
  rhsContracting := [0]
  lhsNonContracting := [0]
  rhsNonContracting := [1]
  lhsBatch := []
  rhsBatch := []
  wf := dot_S256x768_S768x2048_S256x2048_1_0_0_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.CausalConv.lean ====
/-
  The function both programs compute: a causal one-dimensional convolution with three taps.

  For a batch row `b`, an output channel `co` and a time step `t`,
      out[b, co, t] = (∑ k < 3, ∑ ci < 256, weight[co, ci, k] · x[b, ci, t + k - 2]) + bias[co],
  where a read to the left of the sequence (`t + k < 2`) is the zero of the causal left pad.  Everything is on the
  extended reals; sums there are sums of a commutative monoid, so they may be regrouped and reordered freely, and
  a product with the pad's zero is zero whatever the weight.
-/
import Idealize.ShloMosaic.PureOps.Ideal
import Idealize.ShloMosaic.Lib.ValueIdx

noncomputable section

open scoped BigOperators

namespace Cert.CausalConv

open Idealize.ShloMosaic Idealize.ShloMosaic.ValueIdx

/-- The input, [batch, channel, time]. -/
abbrev SX : Shape := ⟨3, ![8, 256, 8192]⟩
/-- The weight, [output channel, input channel, tap]. -/
abbrev SW : Shape := ⟨3, ![256, 256, 3]⟩
/-- The bias, [output channel]. -/
abbrev SB : Shape := ⟨1, ![256]⟩

/-- What tap `k` of output column `t` reads: column `t + k - 2` of the input row, and zero left of the sequence. -/
def tap (x : FVec Ideal SX .f32) (b : Fin 8) (ci : Fin 256) (t : Fin 8192) (k : Fin 3) : EReal :=
  if t.val + k.val < 2 then 0
  else x (ix3 b ci ⟨t.val + k.val - 2, by have := t.isLt; have := k.isLt; omega⟩)

/-- The convolution, index by index. -/
def conv (x : FVec Ideal SX .f32) (w : FVec Ideal SW .f32) (bias : FVec Ideal SB .f32) : FVec Ideal SX .f32 :=
  fun i => (∑ k : Fin 3, ∑ ci : Fin 256, w (ix3 (i 1) ci k) * tap x (i 0) ci (i 2) k) + bias (ix1 (i 1))

theorem conv_apply (x : FVec Ideal SX .f32) (w : FVec Ideal SW .f32) (bias : FVec Ideal SB .f32)
    (b : Fin 8) (co : Fin 256) (t : Fin 8192) :
    conv x w bias (ix3 b co t)
      = (∑ k : Fin 3, ∑ ci : Fin 256, w (ix3 co ci k) * tap x b ci t k) + bias (ix1 co) := rfl

/-- Three sums of 256 terms accumulated in the order "last tap, first tap, middle tap" are the double sum. -/
theorem taps_reordered (f : Fin 3 → Fin 256 → EReal) :
    ((∑ ci, f 2 ci) + (∑ ci, f 0 ci)) + (∑ ci, f 1 ci) = ∑ k : Fin 3, ∑ ci, f k ci := by
  rw [Fin.sum_univ_three]
  abel

/-- One sum over the 768 folded positions `k · 256 + ci` is the double sum. -/
theorem taps_folded (f : Fin 3 → Fin 256 → EReal) :
    (∑ j : Fin 768, f ⟨j.val / 256, by have := j.isLt; omega⟩ ⟨j.val % 256, Nat.mod_lt _ (by norm_num)⟩)
      = ∑ k : Fin 3, ∑ ci, f k ci := by
  rw [← Fintype.sum_prod_type' (f := f)]
  refine (Fintype.sum_equiv (finProdFinEquiv (m := 3) (n := 256)) _ _ fun p => ?_).symm
  obtain ⟨k, ci⟩ := p
  have hk := k.isLt; have hc := ci.isLt
  congr 1
  · apply Fin.ext; simp only [finProdFinEquiv_apply_val]; omega
  · apply Fin.ext; simp only [finProdFinEquiv_apply_val]; omega

end Cert.CausalConv

end
-- ==== Proof.KernelValue.lean ====
/-
  The kernel's result array is the causal three-tap convolution of its arguments.

  The program transposes the weight to [tap, output channel, input channel] and reshapes the bias to a column on the host,
  then runs one body per batch row `b` on the [256, 8192] row block `x_b` of the input. The body forms three products of a
  [256, 256] tap matrix with a [256, 8192] operand and adds them in the order last tap, first tap, middle tap, then the bias
  column copied along the time axis:

      out_b = ((W₂ · x_b + W₀ · shift₂ x_b) + W₁ · shift₁ x_b) + bias,

  where `shift_s` puts `s` zero columns in front of the first `8192 - s` columns of the block. Read at (co, t):

  * each product into a zero accumulator is the sum over the input channel `ci` of `W_k[co, ci]` times the operand's (ci, t);
  * the operand of tap `k` at (ci, t) is `x_b[ci, t + k - 2]`, and `0` when `t + k < 2` (`shifted`): a position in the zero
    columns reads the first piece of the concatenation, any other the slice, two or one columns to the left;
  * the three sums, in the body's order, are the double sum over taps and input channels (`CausalConv.taps_reordered`);
  * the transposed weight at (k, co, ci) is the weight at (co, ci, k), the bias column at (co, 0) is the bias at co.

  So the value the body stores at (0, co, t) is `CausalConv.conv x w bias` at (b, co, t) (`pay_conv`, `out_conv`, stated over
  variables for the staged blocks with the three block-to-array equations as hypotheses). The input's and the result's
  blocks move together, block `t` being batch row `t`, and the weight's and the bias's blocks are the whole arrays at every
  point (`idx_facts`, decided over the eight points); hence what point `t` writes back is block `t` of the convolution
  (`flushed_eq`), the eight blocks fill the result array (row `b` lies in point `b`'s block), and the array after the run is
  the convolution (`final`, `run`). All sums are sums of the extended reals' commutative monoid and the zero columns enter
  through `0` itself, so nothing is asked of the inputs.
-/
import proofs.«154550_g2000606973283855_pallasbulk_306_5_alg».proof.Proof.Gen.KernelIdeal.Value
import proofs.«154550_g2000606973283855_pallasbulk_306_5_alg».proof.Proof.CausalConv
import Idealize.ShloMosaic.PureOps.Ideal.Laws
import Idealize.ShloMosaic.Lib.Pipeline.Value
import Idealize.ShloMosaic.Lib.ValueLayout

noncomputable section

open scoped BigOperators
open Idealize.ShloMosaic Idealize.ShloMosaic.ValueIdx Idealize.ShloMosaic.TcCoe Idealize.SL.Sem
open Idealize.ShloMosaic.Pipeline (Dat)

namespace Cert.KernelIdeal.ConvValue

open Cert.KernelIdeal Cert.KernelIdeal.Gen

/-! ## The body's arithmetic at an index -/

/-- The dot record of the three products. -/
abbrev D := dot_S256x256_S256x8192_S256x8192_1_0_0_1_n_n

/-- A product of a [256, 256] matrix with a [256, 8192] block into a zero accumulator, at (co, t): the sum over the
    contracted axis of the products of the row's and the column's entries. -/
theorem matmul_at (A : FVec Ideal S256x256 .f32) (B : FVec Ideal S256x8192 .f32) (co : Fin 256) (t : Fin 8192) :
    matmul D none A B (constant (F := Ideal) S256x8192 .f32 0x00000000#32) (ix2 co t)
      = ∑ ci : Fin 256, A (ix2 co ci) * B (ix2 ci t) := by
  show FloatOps.matmul D none A B (constant (F := Ideal) S256x8192 .f32 0x00000000#32) (ix2 co t) = _
  rw [Ideal.matmul_constant_zero_apply]
  rw [← Equiv.sum_comp (contrEquiv1 D 256 rfl rfl).symm]
  refine Finset.sum_congr rfl fun ci _ => ?_
  have hl : D.lhsIdx (ix2 co t) ((contrEquiv1 D 256 rfl rfl).symm ci) = ix2 co ci := by
    funext a; apply Fin.ext
    match a with
    | ⟨0, _⟩ => rfl
    | ⟨1, _⟩ =>
      refine (D.lhsIdx_val_of_single (cl := 1) rfl _ _).trans ?_
      exact contrEquiv1_symm_val D 256 rfl rfl ci
  have hr : D.rhsIdx (ix2 co t) ((contrEquiv1 D 256 rfl rfl).symm ci) = ix2 ci t := by
    funext a; apply Fin.ext
    match a with
    | ⟨0, _⟩ =>
      refine (D.rhsIdx_val_of_single (cr := 0) rfl _ _).trans ?_
      exact contrEquiv1_symm_val D 256 rfl rfl ci
    | ⟨1, _⟩ => rfl
  rw [hl, hr]

/-- Column `t` of a row block seen by tap `k`: column `t + k - 2`, and zero to the left of the block. -/
def shifted (X : FVec Ideal S256x8192 .f32) (ci : Fin 256) (t : Fin 8192) (k : Fin 3) : EReal :=
  if t.val + k.val < 2 then 0
  else X (ix2 ci ⟨t.val + k.val - 2, by have := t.isLt; have := k.isLt; omega⟩)

/-- Two zero columns in front of the first 8190 columns: the block as the first tap sees it. -/
theorem shift2_at (X : FVec Ideal S256x8192 .f32) (ci : Fin 256) (t : Fin 8192) :
    concatenate S256x8192 1 [⟨S256x2, broadcast S256x2 (Scalar.ofBits (F := Ideal) .f32 0x00000000#32)⟩,
        ⟨S256x8190, extractStridedSlice S256x8190 ![0, 0] X slices_S256x8192_o0_0_S256x8190⟩]
        concatenates_S256x2_S256x8190_S256x8192_d1 (ix2 ci t)
      = shifted X ci t 0 := by
  have ht := t.isLt
  unfold shifted
  by_cases h : t.val + (0 : Fin 3).val < 2
  · rw [if_pos h]
    have h' : t.val < 2 := h
    refine (concatenate_pair_apply_left (t := S256x8192) (s₁ := S256x2) (s₂ := S256x8190) (1 : Fin 2) _ _ _ (ix2 ci t) rfl
      (ix2 ci (⟨t.val, h'⟩ : Fin 2)) (fun b => ?_)).trans ?_
    · match b with
      | ⟨0, _⟩ => rfl
      | ⟨1, _⟩ => rfl
    · rw [broadcast_apply]; exact Ideal.ofBits_zero_f32
  · rw [if_neg h]
    have h' : 2 ≤ t.val := by have : ¬ t.val < 2 := h; omega
    refine (concatenate_pair_apply_right (t := S256x8192) (s₁ := S256x2) (s₂ := S256x8190) (1 : Fin 2) _ _ _ (ix2 ci t) rfl rfl
      (ix2 ci (⟨t.val - 2, by omega⟩ : Fin 8190)) (fun b hb => ?_) ?_).trans ?_
    · match b with
      | ⟨0, _⟩ => rfl
      | ⟨1, _⟩ => exact absurd rfl hb
    · show t.val - 2 + 2 = t.val; omega
    · exact slice2_axis1_apply 0 X _ ci (⟨t.val - 2, by omega⟩ : Fin 8190) _ (by show t.val + 0 - 2 = 0 + (t.val - 2); omega)

/-- One zero column in front of the first 8191 columns: the block as the middle tap sees it. -/
theorem shift1_at (X : FVec Ideal S256x8192 .f32) (ci : Fin 256) (t : Fin 8192) :
    concatenate S256x8192 1 [⟨S256x1, broadcast S256x1 (Scalar.ofBits (F := Ideal) .f32 0x00000000#32)⟩,
        ⟨S256x8191, extractStridedSlice S256x8191 ![0, 0] X slices_S256x8192_o0_0_S256x8191⟩]
        concatenates_S256x1_S256x8191_S256x8192_d1 (ix2 ci t)
      = shifted X ci t 1 := by
  have ht := t.isLt
  unfold shifted
  by_cases h : t.val + (1 : Fin 3).val < 2
  · rw [if_pos h]
    have h' : t.val < 1 := by have : t.val + 1 < 2 := h; omega
    refine (concatenate_pair_apply_left (t := S256x8192) (s₁ := S256x1) (s₂ := S256x8191) (1 : Fin 2) _ _ _ (ix2 ci t) rfl
      (ix2 ci (⟨t.val, h'⟩ : Fin 1)) (fun b => ?_)).trans ?_
    · match b with
      | ⟨0, _⟩ => rfl
      | ⟨1, _⟩ => rfl
    · rw [broadcast_apply]; exact Ideal.ofBits_zero_f32
  · rw [if_neg h]
    have h' : 1 ≤ t.val := by have : ¬ t.val + 1 < 2 := h; omega
    refine (concatenate_pair_apply_right (t := S256x8192) (s₁ := S256x1) (s₂ := S256x8191) (1 : Fin 2) _ _ _ (ix2 ci t) rfl rfl
      (ix2 ci (⟨t.val - 1, by omega⟩ : Fin 8191)) (fun b hb => ?_) ?_).trans ?_
    · match b with
      | ⟨0, _⟩ => rfl
      | ⟨1, _⟩ => exact absurd rfl hb
    · show t.val - 1 + 1 = t.val; omega
    · exact slice2_axis1_apply 0 X _ ci (⟨t.val - 1, by omega⟩ : Fin 8191) _ (by show t.val + 1 - 2 = 0 + (t.val - 1); omega)

/-- The last tap sees the block itself. -/
theorem shift0_at (X : FVec Ideal S256x8192 .f32) (ci : Fin 256) (t : Fin 8192) :
    X (ix2 ci t) = shifted X ci t 2 := by
  unfold shifted
  rw [if_neg (by show ¬ t.val + 2 < 2; omega)]
  exact congrArg X (congrArg (ix2 ci) (Fin.ext (by show t.val = t.val + 2 - 2; omega)))

/-- A column copied along every row, read at an index. -/
theorem bcast_col_at (v : FVec Ideal S256x1 .f32) (co : Fin 256) (t : Fin 8192) :
    broadcastTo S256x8192 v broadcasts_S256x1_S256x8192 (ix2 co t) = v (ix2 co (0 : Fin 1)) := by
  refine broadcastTo_apply v _ (ix2 co t) (ix2 co (0 : Fin 1)) fun a => ?_
  match a with
  | ⟨0, _⟩ => show co.val = if (256 : Nat) = 1 then 0 else co.val; rw [if_neg (by decide)]
  | ⟨1, _⟩ => show (0 : Nat) = if (1 : Nat) = 1 then 0 else t.val; rw [if_pos rfl]

/-- What a tap sees of a row block that is batch row `b` of the input is what it reads of the input. -/
theorem shifted_eq_tap (X2 : FVec Ideal S256x8192 .f32) (X : FVec Ideal Cert.CausalConv.SX .f32) (b : Fin 8)
    (h : ∀ (ci : Fin 256) (t : Fin 8192), X2 (ix2 ci t) = X (ix3 b ci t)) (ci : Fin 256) (t : Fin 8192) (k : Fin 3) :
    shifted X2 ci t k = Cert.CausalConv.tap X b ci t k := by
  unfold shifted Cert.CausalConv.tap
  by_cases hc : t.val + k.val < 2
  · rw [if_pos hc, if_pos hc]
  · rw [if_neg hc, if_neg hc]; exact h _ _

/-- THE BODY'S RESULT AT AN INDEX: for a staged input block that is batch row `b` of the input, weight blocks that are
    the three taps' matrices and a bias column that is the bias, the stored value at (0, co, t) is the convolution
    at (b, co, t). -/
theorem pay_conv (x0 : Vec Ideal S1x256x8192 .f32) (w2 w0 w1 : Vec Ideal S1x256x256 .f32) (bcol : Vec Ideal S256x1 .f32)
    (X : FVec Ideal Cert.CausalConv.SX .f32) (W : FVec Ideal Cert.CausalConv.SW .f32) (Bv : FVec Ideal Cert.CausalConv.SB .f32)
    (b : Fin 8)
    (hx : ∀ (ci : Fin 256) (t : Fin 8192), x0 (ix3 (0 : Fin 1) ci t) = X (ix3 b ci t))
    (hw2 : ∀ co ci : Fin 256, w2 (ix3 (0 : Fin 1) co ci) = W (ix3 co ci (2 : Fin 3)))
    (hw0 : ∀ co ci : Fin 256, w0 (ix3 (0 : Fin 1) co ci) = W (ix3 co ci (0 : Fin 3)))
    (hw1 : ∀ co ci : Fin 256, w1 (ix3 (0 : Fin 1) co ci) = W (ix3 co ci (1 : Fin 3)))
    (hb : ∀ co : Fin 256, bcol (ix2 co (0 : Fin 1)) = Bv (ix1 co))
    (co : Fin 256) (t : Fin 8192) :
    k0_pay1 (F := Ideal) x0 w2 w0 w1 bcol (ix3 (0 : Fin 1) co t) = Cert.CausalConv.conv X W Bv (ix3 b co t) := by
  rw [Cert.CausalConv.conv_apply, ← Cert.CausalConv.taps_reordered]
  unfold k0_pay1
  have hX2 : ∀ (ci : Fin 256) (t : Fin 8192),
      shapeCast S256x8192 x0 shapeCasts_S1x256x8192_S256x8192 (ix2 ci t) = X (ix3 b ci t) :=
    fun ci t => (shapeCast_1ab_ab_apply x0 _ ci t).trans (hx ci t)
  generalize shapeCast S256x8192 x0 shapeCasts_S1x256x8192_S256x8192 = X2 at hX2 ⊢
  rw [shapeCast_ab_1ab_apply, addf_apply, addf_apply, addf_apply, matmul_at, matmul_at, matmul_at, bcast_col_at,
    shapeCast_self]
  refine congrArg₂ (· + ·) (congrArg₂ (· + ·) (congrArg₂ (· + ·) ?_ ?_) ?_) (hb co)
  · refine Finset.sum_congr rfl fun ci _ => ?_
    rw [shapeCast_1ab_ab_apply, hw2, shift0_at X2 ci t, shifted_eq_tap X2 X b hX2]
  · refine Finset.sum_congr rfl fun ci _ => ?_
    rw [shapeCast_1ab_ab_apply, hw0, shift2_at, shifted_eq_tap X2 X b hX2]
  · refine Finset.sum_congr rfl fun ci _ => ?_
    rw [shapeCast_1ab_ab_apply, hw1, shift1_at, shifted_eq_tap X2 X b hX2]

/-! ## The arrays the body reads, and the blocks at a point -/

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the eight points: the input and the result move together along the batch axis,
    one batch row per point; the weight and the bias are whole at every point. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 3) = t.val ∧ win0_3.index t (1 : Fin 3) = 0 ∧ win0_3.index t (2 : Fin 3) = 0) :=
  (by decide +kernel : ∀ t : Fin grid0.N, _)

/-- The transposed weight the host hands the kernel: entry (k, co, ci) is the weight's (co, ci, k). -/
theorem V_weight (c : Dev nD) (k : Fin 3) (co ci : Fin 256) :
    (V m c main_v0 : S3x256x256.Idx → EReal) (ix3 k co ci)
      = (m ((c : Thread nD τ).loc main_arg1) : S256x256x3.Idx → EReal) (ix3 co ci k) := by
  have e : (V m c main_v0 : S3x256x256.Idx → EReal)
      = transpose S3x256x256 [2, 0, 1] (m ((c : Thread nD τ).loc main_arg1) : S256x256x3.Idx → EReal)
          transposes_S256x256x3_S3x256x256_2_0_1 := by
    dsimp only [Gen.V, Gen.hostOps0]; after_results
  rw [e]
  refine transpose_apply _ _ _ _ (ix3 co ci k) fun b => ?_
  match b with
  | ⟨0, _⟩ => rfl
  | ⟨1, _⟩ => rfl
  | ⟨2, _⟩ => rfl

/-- The bias column the host hands the kernel: entry (co, 0) is the bias's co. -/
theorem V_bias (c : Dev nD) (co : Fin 256) :
    (V m c main_v1 : S256x1.Idx → EReal) (ix2 co (0 : Fin 1))
      = (m ((c : Thread nD τ).loc main_arg2) : S256.Idx → EReal) (ix1 co) := by
  have e : (V m c main_v1 : S256x1.Idx → EReal)
      = shapeCast S256x1 (m ((c : Thread nD τ).loc main_arg2) : S256.Idx → EReal) shapeCasts_S256_S256x1 := by
    dsimp only [Gen.V, Gen.hostOps0]; after_results; rfl
  rw [e]
  refine shapeCast_apply _ _ _ (ix1 co) ?_
  rw [Shape.rowMajor_val_one, Shape.rowMajor_val_two]
  show co.val = co.val * 1 + 0
  omega

/-- The input's block at point `t` is batch row `t` of the input. -/
theorem iblk_x (c : Dev nD) (t : Fin cfg0.N) (ht : t.val < 8) (ci : Fin 256) (tt : Fin 8192) :
    (iblk m c 0 t : S1x256x8192.Idx → EReal) (ix3 (0 : Fin 1) ci tt)
      = (m ((c : Thread nD τ).loc main_arg0) : S8x256x8192.Idx → EReal) (ix3 (⟨t.val, ht⟩ : Fin 8) ci tt) := by
  obtain ⟨⟨e0, e1, e2⟩, -, -, -⟩ := idx_facts t
  show V m c main_arg0 (((cfg0.win 0).blk t).view.emb (ix3 (0 : Fin 1) ci tt)) = _
  rw [V_main_arg0]
  refine congrArg (m ((c : Thread nD τ).loc main_arg0) : S8x256x8192.Idx → EReal) (funext fun a => Fin.ext ?_)
  match a with
  | ⟨0, _⟩ => show win0_0.index t (0 : Fin 3) * 1 + 1 * 0 = t.val; omega
  | ⟨1, _⟩ => show win0_0.index t (1 : Fin 3) * 256 + 1 * ci.val = ci.val; omega
  | ⟨2, _⟩ => show win0_0.index t (2 : Fin 3) * 8192 + 1 * tt.val = tt.val; omega

/-- The weight's block at every point is the whole transposed weight. -/
theorem iblk_w (c : Dev nD) (t : Fin cfg0.N) (k : Fin 3) (co ci : Fin 256) :
    (iblk m c 1 t : S3x256x256.Idx → EReal) (ix3 k co ci)
      = (m ((c : Thread nD τ).loc main_arg1) : S256x256x3.Idx → EReal) (ix3 co ci k) := by
  obtain ⟨-, ⟨e0, e1, e2⟩, -, -⟩ := idx_facts t
  show V m c main_v0 (((cfg0.win 1).blk t).view.emb (ix3 k co ci)) = _
  refine Eq.trans (congrArg (V m c main_v0 : S3x256x256.Idx → EReal) (funext fun a => Fin.ext ?_)) (V_weight m c k co ci)
  match a with
  | ⟨0, _⟩ => show win0_1.index t (0 : Fin 3) * 3 + 1 * k.val = k.val; omega
  | ⟨1, _⟩ => show win0_1.index t (1 : Fin 3) * 256 + 1 * co.val = co.val; omega
  | ⟨2, _⟩ => show win0_1.index t (2 : Fin 3) * 256 + 1 * ci.val = ci.val; omega

/-- The bias's block at every point is the whole bias column. -/
theorem iblk_b (c : Dev nD) (t : Fin cfg0.N) (co : Fin 256) :
    (iblk m c 2 t : S256x1.Idx → EReal) (ix2 co (0 : Fin 1))
      = (m ((c : Thread nD τ).loc main_arg2) : S256.Idx → EReal) (ix1 co) := by
  obtain ⟨-, -, ⟨e0, e1⟩, -⟩ := idx_facts t
  show V m c main_v1 (((cfg0.win 2).blk t).view.emb (ix2 co (0 : Fin 1))) = _
  refine Eq.trans (congrArg (V m c main_v1 : S256x1.Idx → EReal) (funext fun a => Fin.ext ?_)) (V_bias m c co)
  match a with
  | ⟨0, _⟩ => show win0_2.index t (0 : Fin 2) * 256 + 1 * co.val = co.val; omega
  | ⟨1, _⟩ => show win0_2.index t (1 : Fin 2) * 1 + 1 * 0 = 0; omega

/-- WHAT THE BODY LEAVES IN THE RESULT'S BUFFER, at an index: for a staged input block that is batch row `b`, the staged
    transposed weight and the staged bias column, entry (0, co, t) is the convolution at (b, co, t). -/
theorem out_conv (x0 : Vec Ideal S1x256x8192 .f32) (x1 : Vec Ideal S3x256x256 .f32) (x2 : Vec Ideal S256x1 .f32)
    (X : FVec Ideal Cert.CausalConv.SX .f32) (W : FVec Ideal Cert.CausalConv.SW .f32) (Bv : FVec Ideal Cert.CausalConv.SB .f32)
    (b : Fin 8)
    (hx : ∀ (ci : Fin 256) (t : Fin 8192), x0 (ix3 (0 : Fin 1) ci t) = X (ix3 b ci t))
    (hw : ∀ (k : Fin 3) (co ci : Fin 256), x1 (ix3 k co ci) = W (ix3 co ci k))
    (hb : ∀ co : Fin 256, x2 (ix2 co (0 : Fin 1)) = Bv (ix1 co))
    (co : Fin 256) (t : Fin 8192) :
    out0_3 (F := Ideal) x0 x1 x2 (ix3 (0 : Fin 1) co t) = Cert.CausalConv.conv X W Bv (ix3 b co t) := by
  unfold out0_3
  rw [View.canon_unit_zero hz3]
  simp only [View.ld_unit_zero (S := S1x256x8192) hz3, View.ld_unit_zero (S := S256x1) hz2]
  refine pay_conv _ _ _ _ _ X W Bv b hx (fun co ci => ?_) (fun co ci => ?_) (fun co ci => ?_) hb co t
  · refine Eq.trans (congrArg x1 (funext fun a => Fin.ext ?_)) (hw 2 co ci)
    match a with
    | ⟨0, _⟩ => rfl
    | ⟨1, _⟩ => show 0 + 1 * co.val = co.val; omega
    | ⟨2, _⟩ => show 0 + 1 * ci.val = ci.val; omega
  · refine Eq.trans (congrArg x1 (funext fun a => Fin.ext ?_)) (hw 0 co ci)
    match a with
    | ⟨0, _⟩ => rfl
    | ⟨1, _⟩ => show 0 + 1 * co.val = co.val; omega
    | ⟨2, _⟩ => show 0 + 1 * ci.val = ci.val; omega
  · refine Eq.trans (congrArg x1 (funext fun a => Fin.ext ?_)) (hw 1 co ci)
    match a with
    | ⟨0, _⟩ => rfl
    | ⟨1, _⟩ => show 0 + 1 * co.val = co.val; omega
    | ⟨2, _⟩ => show 0 + 1 * ci.val = ci.val; omega

/-! ## From blocks to the array -/

/-- WHAT POINT `t` WRITES BACK is block `t` of the convolution of the argument arrays. -/
theorem flushed_eq (c : Dev nD) (t : Fin cfg0.N) :
    (dats m 0 c).flushed 3 t = ((cfg0.win 3).blk t).view.read (Elt Ideal)
      (Cert.CausalConv.conv (m ((c : Thread nD τ).loc main_arg0)) (m ((c : Thread nD τ).loc main_arg1))
        (m ((c : Thread nD τ).loc main_arg2))) := by
  have ht : t.val < 8 := Nat.lt_of_lt_of_eq t.isLt (N_0 : cfg0.N = 8)
  obtain ⟨-, -, -, e0, e1, e2⟩ := idx_facts t
  rw [Value.flushed3]
  funext j
  have hj0 : (j 0).val < 1 := (j 0).isLt
  have hj1 : (j 1).val < 256 := (j 1).isLt
  have hj2 : (j 2).val < 8192 := (j 2).isLt
  have ej : (cfg0.win 3).xinj (grid0.coords t) j
      = ix3 (0 : Fin 1) (⟨(j 1).val, hj1⟩ : Fin 256) (⟨(j 2).val, hj2⟩ : Fin 8192) :=
    funext fun a => Fin.ext (by
      match a with
      | ⟨0, _⟩ => show (j 0).val = 0; omega
      | ⟨1, _⟩ => rfl
      | ⟨2, _⟩ => rfl)
  show out0_3 (iblk m c 0 t) (iblk m c 1 t) (iblk m c 2 t) ((cfg0.win 3).xinj (grid0.coords t) j)
    = Cert.CausalConv.conv (m ((c : Thread nD τ).loc main_arg0)) (m ((c : Thread nD τ).loc main_arg1))
        (m ((c : Thread nD τ).loc main_arg2)) (((cfg0.win 3).blk t).view.emb j)
  refine (congrArg (out0_3 (iblk m c 0 t) (iblk m c 1 t) (iblk m c 2 t)) ej).trans ?_
  refine (out_conv (iblk m c 0 t) (iblk m c 1 t) (iblk m c 2 t) _ _ _ (⟨t.val, ht⟩ : Fin 8)
    (iblk_x m c t ht) (iblk_w m c t) (iblk_b m c t) _ _).trans ?_
  refine congrArg _ (funext fun a => Fin.ext ?_)
  match a with
  | ⟨0, _⟩ => show t.val = win0_3.index t (0 : Fin 3) * 1 + 1 * (j 0).val; omega
  | ⟨1, _⟩ => show (j 1).val = win0_3.index t (1 : Fin 3) * 256 + 1 * (j 1).val; omega
  | ⟨2, _⟩ => show (j 2).val = win0_3.index t (2 : Fin 3) * 8192 + 1 * (j 2).val; omega

/-- THE RESULT ARRAY after the run is the convolution of the argument arrays: batch row `b` lies in point `b`'s block, and
    the eight blocks fill the array. -/
theorem final (c : Dev nD) :
    (dats m 0 c).arrAt 3 cfg0.N
      = Cert.CausalConv.conv (m ((c : Thread nD τ).loc main_arg0)) (m ((c : Thread nD τ).loc main_arg1))
          (m ((c : Thread nD τ).loc main_arg2)) :=
  (dats m 0 c).arrAt_eq_of_cover 3 _ (fun t _ => flushed_eq m c t) fun i => by
    have hN : cfg0.N = 8 := N_0
    have hi0 : (i 0).val < 8 := (i 0).isLt
    have hi1 : (i 1).val < 256 := (i 1).isLt
    have hi2 : (i 2).val < 8192 := (i 2).isLt
    have hp : ∃ t : Fin cfg0.N, t.val = (i 0).val := ⟨⟨(i 0).val, Nat.lt_of_lt_of_eq hi0 hN.symm⟩, rfl⟩
    obtain ⟨t, htv⟩ := hp
    obtain ⟨-, -, -, e0, e1, e2⟩ := idx_facts t
    refine ⟨t, flush0_3 t, ?_⟩
    show i ∈ ((View.whole main_v2).slice (win0_3.rect t)).set
    rw [View.set_slice_whole, Rect.mem_set_unit]
    intro a
    match a with
    | ⟨0, _⟩ =>
      show win0_3.index t (0 : Fin 3) * 1 ≤ (i 0).val ∧ (i 0).val < win0_3.index t (0 : Fin 3) * 1 + 1
      omega
    | ⟨1, _⟩ =>
      show win0_3.index t (1 : Fin 3) * 256 ≤ (i 1).val ∧ (i 1).val < win0_3.index t (1 : Fin 3) * 256 + 256
      omega
    | ⟨2, _⟩ =>
      show win0_3.index t (2 : Fin 3) * 8192 ≤ (i 2).val ∧ (i 2).val < win0_3.index t (2 : Fin 3) * 8192 + 8192
      omega

/-- THE RUN, READ: every execution of the program on the cores terminates with the result array at the convolution of the
    argument arrays as launched, and the three argument arrays unchanged. -/
theorem run : θ_run defs (onTc (τ := τ) (main (F := Ideal))) ⟨m, fun _ => 0, ρ⟩ fun r => ∀ c : Dev nD,
      r.2.mem ((c : Thread nD τ).loc main_v2)
        = Cert.CausalConv.conv (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ConvValue
end
-- ==== Proof.RefTiles.lean ====
/-
  The reference, itself a tiled kernel: that it runs, leaves its arguments alone, and what each write-back holds.

  The reference computes the convolution tile by tile on a grid of 8 batch rows by 4 time tiles of 2048 columns. At a
  point it is handed the tile of the input, the band of 128 columns just before the tile (the first band again at the
  first tile, where the body replaces it by zeros), the weight with its three taps folded into one contraction axis of
  768, and the bias as a column. The body writes three copies of the tile into a scratch of 768 rows, copy `k` shifted
  right by `2 - k` columns with the band's last columns entering on the left, multiplies the folded weight by the
  scratch, adds the bias column and stores the result as the output tile.

  Two things set it apart from a kernel whose windows sit on distinct arrays. The tile's window and the band's window
  read the SAME array: at entry the array's share is halved between them, and neither writes it. The scratch is the
  body's own: whatever it held before a point is overwritten by the three copies, which tile it, before it is read, so
  the region's invariant is only "the scratch holds something".
-/
import proofs.«154550_g2000606973283855_pallasbulk_306_5_alg».proof.Proof.Gen.ReferenceIdeal.Launch
import proofs.«154550_g2000606973283855_pallasbulk_306_5_alg».proof.Proof.Gen.ReferenceIdeal.Skeleton
import proofs.«154550_g2000606973283855_pallasbulk_306_5_alg».proof.Proof.Gen.ReferenceIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.ReferenceIdeal.Tiles

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the tiled region finds them -/

/-- A core's buffers when the region is entered: after the host operations that fold the weight's taps into one
    contraction axis and make the bias a column. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write none of the three arguments. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- A window's block at a grid point, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the region's and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole tile, the whole band of columns before it, the three slabs of the scratch and the scratch whole, the
    folded weight whole, the bias column whole. -/
abbrev rTile : Rect S1x256x2048 := Rect.unit (s := S1x256x2048) ![0, 0, 0] S1x256x2048.size inb_S1x256x2048_S1x256x2048_0_0_0
abbrev rBand : Rect S1x256x128 := Rect.unit (s := S1x256x128) ![0, 0, 0] S1x256x128.size inb_S1x256x128_S1x256x128_0_0_0
abbrev rSlab0 : Rect S768x2048 := Rect.unit (s := S768x2048) ![0, 0] S256x2048.size inb_S768x2048_S256x2048_0_0
abbrev rSlab1 : Rect S768x2048 := Rect.unit (s := S768x2048) ![256, 0] S256x2048.size inb_S768x2048_S256x2048_256_0
abbrev rSlab2 : Rect S768x2048 := Rect.unit (s := S768x2048) ![512, 0] S256x2048.size inb_S768x2048_S256x2048_512_0
abbrev rScr : Rect S768x2048 := Rect.unit (s := S768x2048) ![0, 0] S768x2048.size inb_S768x2048_S768x2048_0_0
abbrev rWt : Rect S256x768 := Rect.unit (s := S256x768) ![0, 0] S256x768.size inb_S256x768_S256x768_0_0
abbrev rBias : Rect S256x1 := Rect.unit (s := S256x1) ![0, 0] S256x1.size inb_S256x1_S256x1_0_0

/-! ## What the body leaves -/

/-- The scratch after the three slab stores, last store first: slab `k` holds the tile's columns shifted by `2 - k`. -/
def slabs (i : grid0.Coords) (x0 : Vec F S1x256x2048 .f32) (x1 : Vec F S1x256x128 .f32) : List (View.Piece (Elt F) S768x2048 .f32) :=
  [⟨rSlab2, k0_pay4 i (View.ld x0 rTile) (View.ld x1 rBand)⟩, ⟨rSlab1, k0_pay3 i (View.ld x0 rTile) (View.ld x1 rBand)⟩,
   ⟨rSlab0, k0_pay2 i (View.ld x0 rTile) (View.ld x1 rBand)⟩]

def scratchAfter (i : grid0.Coords) (x0 : Vec F S1x256x2048 .f32) (x1 : Vec F S1x256x128 .f32) : Vec F S768x2048 .f32 :=
  View.canon (slabs i x0 x1)

/-- The three slabs tile the scratch. -/
theorem slabs_cover (i : grid0.Coords) (x0 : Vec F S1x256x2048 .f32) (x1 : Vec F S1x256x128 .f32) (y : S768x2048.Idx) :
    ∃ pc ∈ slabs i x0 x1, y ∈ pc.1.set := by
  unfold slabs
  exact View.cover_of_tiled (s := S768x2048) _ ![256, 2048] (by rfl) y

/-- The output tile's buffer after the body: the folded weight times the scratch, plus the bias column. -/
def outTile (i : grid0.Coords) (x0 : Vec F S1x256x2048 .f32) (x1 : Vec F S1x256x128 .f32) (x2 : Vec F S256x768 .f32) (x3 : Vec F S256x1 .f32) : Vec F S1x256x2048 .f32 :=
  View.canon [⟨rTile, k0_pay5 (View.ld x2 rWt) (View.ld (scratchAfter i x0 x1) rScr) (View.ld x3 rBias)⟩]

theorem outTile_cover (p0 : Vec F S1x256x2048 .f32) (y : S1x256x2048.Idx) :
    ∃ pc ∈ ([⟨rTile, p0⟩] : List (View.Piece (Elt F) S1x256x2048 .f32)), y ∈ pc.1.set :=
  View.cover_of_tiled [⟨rTile, p0⟩] S1x256x2048.size (by rfl) y

/-! ## The body's triple -/

set_option maxHeartbeats 2000000 in
/-- The body on whole staging memrefs: the inputs at read contents, the output and the scratch at anything; it leaves the
    inputs as they were, the output at `outTile` and the scratch at some contents. -/
theorem sound_kernel (c : Dev nD) (E : Set ℕ) (i : grid0.Coords) (arg2 : Memref sig .tc .vmem S1x256x2048 .f32) (harg2 : arg2.IsWhole) (arg3 : Memref sig .tc .vmem S1x256x128 .f32) (harg3 : arg3.IsWhole) (arg4 : Memref sig .tc .vmem S256x768 .f32) (harg4 : arg4.IsWhole) (arg5 : Memref sig .tc .vmem S256x1 .f32) (harg5 : arg5.IsWhole) (arg6 : Memref sig .tc .vmem S1x256x2048 .f32) (harg6 : arg6.IsWhole) (arg7 : Memref sig .tc .vmem S768x2048 .f32) (harg7 : arg7.IsWhole)
    (x0 : Vec F S1x256x2048 .f32) (x1 : Vec F S1x256x128 .f32) (x2 : Vec F S256x768 .f32) (x3 : Vec F S256x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (outTile i x0 x1 x2 x3) ∗ (∃ d, owns (c : Thread nD τ) arg7 fullShare d)) -∗ K ⟨⟩))
      ⊢ wp frame (wpE (defs₀ (F := F)) Variants.none c none) E (cc0__tcn_kernel i arg2 harg2 arg3 harg3 arg4 harg4 arg5 harg5 arg6 harg6 arg7 harg7) K := by
  simp only [cc0__tcn_kernel_eq_skeleton]; unfold cc0__tcn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    refine (View.read_writes_eq_canon _ _ _ (outTile_cover _)).trans ?_
    unfold outTile scratchAfter
    rw [← View.readCov_eq_canon_ld arg7.view (slabs i _ _) rScr (slabs_cover i _ _)]
    rfl
  iexists _; iexists _; isplitr
  swap; · iexact H5
  ipureintro; rfl

/-! ## The proof data -/

/-- The proof data of the tiled region on a core: the arrays as the region finds them; after the body each input's
    buffer at its block and the output's at `outTile` of the input blocks; the invariant is the scratch at some contents;
    nothing owed. The input array is read through two windows, the tile and the band before it, so each holds half of
    its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outTile (grid0.coords t) (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outTile (grid0.coords t) (iblk m c 0 t) (iblk m c 1 t) (iblk m c 2 t) (iblk m c 3 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d

/-- The invariant is the scratch, a whole buffer, owned at some contents. -/
theorem scratch_eq (c : Dev nD) :
    (Pipeline.scopedRest (Ix := Unit) (Name := ℕ) (U := UR sig nD τ) (Lvl := ℕ) (Val := Elt F) spec0 c : sProp 𝕄)
      = iprop(∃ d, owns (c : Thread nD τ) (Memref.whole cc0_scratch0) fullShare d) := by
  rw [scopedRest0_eq]; simp only [owns_whole]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the input memrefs hold their blocks, the scratch is taken out of the invariant and put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4,
    show (dats m 0 c).Φ t.castSucc = _ from scratch_eq c]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [HΦ]; · iexact HΦ
  iintro ⟨H0, H1, H2, H3, H4, HS⟩
  isplitl [HS]; · iexact HS
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The arrays at entry -/

/-- The buffers behind the windows' arrays, one by one: the input, the folded weight, the bias column, the result. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_v1) ↦{fullShare} V m c main_v1)
          ∗ (((c : Thread nD τ).loc main_v2) ↦{fullShare} V m c main_v2) ∗ (((c : Thread nD τ).loc main_v3) ↦{fullShare} V m c main_v3)) :=
  bigSep_eq_bigSepL_of_eq [main_arg0, main_v1, main_v2, main_v3] (by decide) (by decide) _

theorem Φ_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

/-- The four buffers behind the five windows, each whole at the full share, are the proof data's arrays at entry: the
    input array's share is halved between the tile's window and the band's. -/
theorem arrays_at_entry (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  have s0 : (dats m 0 c).share 0 = fullShare.left := rfl
  have s1 : (dats m 0 c).share 1 = fullShare.right := rfl
  have s2 : (dats m 0 c).share 2 = fullShare := rfl
  have s3 : (dats m 0 c).share 3 = fullShare := rfl
  have s4 : (dats m 0 c).share 4 = fullShare := rfl
  rw [s0, s1, s2, s3, s4]
  simp only [View.set_whole]
  iintro ⟨H0, H1, H2, H3⟩
  ihave H0' := (pointsTo_share (PosShare.mem_left_op_right fullShare)).1 $$ H0
  icases H0' with ⟨Ha, Hb⟩
  isplitl [Ha]; · iexact Ha
  isplitl [Hb]; · iexact Hb
  isplitl [H1]; · iexact H1
  isplitl [H2]; · iexact H2
  iexact H3

/-! ## The run -/

set_option backward.isDefEq.respectTransparency.types false in
/-- Every weakly fair execution of the tiled program terminates, and every final state has each window's array at what
    the write-backs of the proof data leave and every other unscoped buffer as the region found it. -/
theorem run_main : θ_run defs (onTc (τ := τ) (main (F := F))) (s₀ m ρ) (Pipeline.FramePost cfgs (dats m) 0 (V m)) := by
  classical
  exact Pipeline.θ_run_region_noSem_shared (Q := Pipeline.FramePost cfgs (dats m) 0 (V m)) cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := arrays_at_entry m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [Φ_eq]; iintro ⟨-, H⟩; iexact H)
    (hout := fun c => by
      rw [Φ_eq]; iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The frame: the three argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.ReferenceIdeal.Tiles

end
-- ==== Proof.RefPayload.lean ====
/-
  The reference's tile computation, read index by index on the extended reals.

  One grid point of the reference handles a batch row and a tile of 2048 time steps.  It widens the tile on
  the left by the 128 columns that precede it (zeros when the tile is the first of its row: the causal pad),
  cuts three windows of 2048 columns out of the widened tile at column offsets 126, 127 and 128 — window k at
  column t holds the input at time t + k - 2 —, stacks them as the rows k·256 + ci of one [768, 2048] matrix, and
  multiplies that matrix by the folded weight [256, 768] whose entry (co, k·256 + ci) is weight (co, ci, k), adding
  the bias of channel co along the row.  This module states each of those pieces at an explicit index:
  the widened tile, the three windows, the product, and the two arrays (folded weight, bias column) that the
  host operations ahead of the grid write.
-/
import proofs.«154550_g2000606973283855_pallasbulk_306_5_alg».proof.Proof.Gen.ReferenceIdeal.Skeleton
import proofs.«154550_g2000606973283855_pallasbulk_306_5_alg».proof.Proof.Gen.ReferenceIdeal.Launch
import proofs.«154550_g2000606973283855_pallasbulk_306_5_alg».proof.Proof.CausalConv
import Idealize.ShloMosaic.Lib.ValueIdx
import Idealize.ShloMosaic.Lib.Pipeline.Value
import Idealize.ShloMosaic.PureOps.Ideal.Laws

noncomputable section

open scoped BigOperators

namespace Cert.ReferenceIdeal.ConvPayload

open Idealize.ShloMosaic Idealize.ShloMosaic.ValueIdx
open Cert.ReferenceIdeal Cert.ReferenceIdeal.Gen

/-- The output tile at (0, co, tt): row `co` of the folded weight against column `tt` of the stacked
    slabs, summed over the 768 folded positions, plus the bias of channel `co`. -/
theorem pay5_apply (w : Vec Ideal S256x768 .f32) (S : Vec Ideal S768x2048 .f32) (bcol : Vec Ideal S256x1 .f32)
    (co : Fin 256) (tt : Fin 2048) :
    k0_pay5 (F := Ideal) w S bcol (ix3 (0 : Fin 1) co tt)
      = (∑ j : Fin 768, w (ix2 co j) * S (ix2 j tt)) + bcol (ix2 co (0 : Fin 1)) := by
  unfold k0_pay5
  rw [shapeCast_self, shapeCast_self]
  refine (shapeCast_apply _ _ (ix3 (0 : Fin 1) co tt) (ix2 co tt) (by
    rw [Shape.rowMajor_val_two, Shape.rowMajor_val_three]; show _ = (0 * 256 + co.val) * 2048 + tt.val; simp)).trans ?_
  rw [addf_apply]
  congr 1
  · -- the product: one contracted axis of extent 768
    refine (Ideal.matmul_constant_zero_apply (φ₁ := .f32) (φ₂ := .f32) dot_S256x768_S768x2048_S256x2048_1_0_0_1_n_n none w S
      (ix2 co tt)).trans ?_
    rw [← Equiv.sum_comp (contrEquiv1 dot_S256x768_S768x2048_S256x2048_1_0_0_1_n_n 768 rfl rfl).symm]
    refine Finset.sum_congr rfl fun c _ => ?_
    have c2 := contrEquiv1_symm_val dot_S256x768_S768x2048_S256x2048_1_0_0_1_n_n 768 rfl rfl c
    have l2 : dot_S256x768_S768x2048_S256x2048_1_0_0_1_n_n.lhsIdx (ix2 co tt) ((contrEquiv1 _ 768 rfl rfl).symm c) = ix2 co c := by
      funext ax; apply Fin.ext
      match ax with
      | ⟨0, _⟩ => simp [DotDims.lhsIdx, dot_S256x768_S768x2048_S256x2048_1_0_0_1_n_n]; rfl
      | ⟨1, _⟩ => simp [DotDims.lhsIdx, dot_S256x768_S768x2048_S256x2048_1_0_0_1_n_n]; exact c2
    have r2 : dot_S256x768_S768x2048_S256x2048_1_0_0_1_n_n.rhsIdx (ix2 co tt) ((contrEquiv1 _ 768 rfl rfl).symm c) = ix2 c tt := by
      funext ax; apply Fin.ext
      match ax with
      | ⟨0, _⟩ => simp [DotDims.rhsIdx, dot_S256x768_S768x2048_S256x2048_1_0_0_1_n_n]; exact c2
      | ⟨1, _⟩ => simp [DotDims.rhsIdx, dot_S256x768_S768x2048_S256x2048_1_0_0_1_n_n]; rfl
    rw [l2, r2]
  · -- the bias column laid along every column of the tile
    exact broadcastTo_apply _ _ (ix2 co tt) (ix2 co (0 : Fin 1)) (fun a => by
      match a with
      | ⟨0, _⟩ => rfl
      | ⟨1, _⟩ => rfl)

/-- The one-bit word "the time tile is the first one": the tile coordinate is below 4. -/
theorem tile_eq_zero_word (n : Nat) (hn : n < 4) :
    Scalar.cmpi .eq (BitVec.ofNat 32 n) 0#32 = if n = 0 then 1#1 else 0#1 := by
  interval_cases n <;> rfl

/-- The widened tile, columns 0..127: the 128 columns before the tile, or the causal pad's zeros
    when the tile is the first of its row. -/
theorem pay1_left (i : grid0.Coords) (x0 : Vec Ideal S1x256x2048 .f32) (x1 : Vec Ideal S1x256x128 .f32)
    (ci : Fin 256) (c : Fin 2176) (hc : c.val < 128) :
    k0_pay1 (F := Ideal) i x0 x1 (ix2 ci c)
      = if (i 1).val = 0 then 0 else x1 (ix3 (0 : Fin 1) ci (⟨c.val, hc⟩ : Fin 128)) := by
  unfold k0_pay1
  refine (concatenate_pair_apply_left (t := S256x2176) (s₁ := S256x128) (s₂ := S256x2048) (1 : Fin 2) _ _ concatenates_S256x128_S256x2048_S256x2176_d1 (ix2 ci c) rfl
    (ix2 ci (⟨c.val, hc⟩ : Fin 128)) (fun b => by
      match b with
      | ⟨0, _⟩ => rfl
      | ⟨1, _⟩ => rfl)).trans ?_
  rw [tile_eq_zero_word (i 1).val (i 1).isLt]
  by_cases h : (i 1).val = 0
  · rw [if_pos h, if_pos h, select_one, broadcast_apply]
    exact Ideal.ofBits_zero_f32
  · rw [if_neg h, if_neg h, select_zero]
    exact shapeCast_apply _ _ (ix2 ci (⟨c.val, hc⟩ : Fin 128)) (ix3 (0 : Fin 1) ci (⟨c.val, hc⟩ : Fin 128)) (by
      rw [Shape.rowMajor_val_two, Shape.rowMajor_val_three]
      show (0 * 256 + ci.val) * 128 + c.val = ci.val * 128 + c.val
      simp)

/-- The widened tile, columns 128..2175: the tile itself, 128 columns to the right. -/
theorem pay1_right (i : grid0.Coords) (x0 : Vec Ideal S1x256x2048 .f32) (x1 : Vec Ideal S1x256x128 .f32)
    (ci : Fin 256) (c : Fin 2176) (hc : 128 ≤ c.val) :
    k0_pay1 (F := Ideal) i x0 x1 (ix2 ci c)
      = x0 (ix3 (0 : Fin 1) ci (⟨c.val - 128, by have := c.isLt; omega⟩ : Fin 2048)) := by
  have hc' : c.val - 128 < 2048 := by have := c.isLt; omega
  unfold k0_pay1
  refine (concatenate_pair_apply_right (t := S256x2176) (s₁ := S256x128) (s₂ := S256x2048) (1 : Fin 2) _ _ concatenates_S256x128_S256x2048_S256x2176_d1 (ix2 ci c) rfl rfl
    (ix2 ci (⟨c.val - 128, hc'⟩ : Fin 2048)) (fun b hb => by
      match b with
      | ⟨0, _⟩ => rfl
      | ⟨1, _⟩ => exact absurd rfl hb) (by
      show (c.val - 128) + 128 = c.val
      omega)).trans ?_
  exact shapeCast_apply _ _ (ix2 ci (⟨c.val - 128, hc'⟩ : Fin 2048)) (ix3 (0 : Fin 1) ci (⟨c.val - 128, hc'⟩ : Fin 2048)) (by
    rw [Shape.rowMajor_val_two, Shape.rowMajor_val_three]
    show (0 * 256 + ci.val) * 2048 + (c.val - 128) = ci.val * 2048 + (c.val - 128)
    simp)

/-- A window of 2048 columns of the widened tile starting at column `o`, read at a column that is
    still left of the tile: the columns before the tile (or the pad's zeros). -/
theorem slab_left (o : Nat) (h : S256x2176.Slices ![0, o] S256x2048) (hs : S256x2048.ShapeCasts S256x2048)
    (i : grid0.Coords) (x0 : Vec Ideal S1x256x2048 .f32) (x1 : Vec Ideal S1x256x128 .f32)
    (ci : Fin 256) (tt : Fin 2048) (hlt : o + tt.val < 128) :
    shapeCast S256x2048 (extractStridedSlice S256x2048 ![0, o] (k0_pay1 (F := Ideal) i x0 x1) h) hs (ix2 ci tt)
      = if (i 1).val = 0 then 0 else x1 (ix3 (0 : Fin 1) ci (⟨o + tt.val, hlt⟩ : Fin 128)) := by
  rw [shapeCast_self]
  refine (extractStridedSlice_apply ![0, o] _ h (ix2 ci tt) (ix2 ci (⟨o + tt.val, by omega⟩ : Fin 2176)) (fun a => by
    match a with
    | ⟨0, _⟩ => show ci.val = 0 + ci.val; omega
    | ⟨1, _⟩ => rfl)).trans ?_
  exact pay1_left i x0 x1 ci ⟨o + tt.val, by omega⟩ hlt

/-- The same window read at a column inside the tile: the tile, `128 - o` columns to the left. -/
theorem slab_right (o : Nat) (ho : o ≤ 128) (h : S256x2176.Slices ![0, o] S256x2048) (hs : S256x2048.ShapeCasts S256x2048)
    (i : grid0.Coords) (x0 : Vec Ideal S1x256x2048 .f32) (x1 : Vec Ideal S1x256x128 .f32)
    (ci : Fin 256) (tt : Fin 2048) (hge : 128 ≤ o + tt.val) :
    shapeCast S256x2048 (extractStridedSlice S256x2048 ![0, o] (k0_pay1 (F := Ideal) i x0 x1) h) hs (ix2 ci tt)
      = x0 (ix3 (0 : Fin 1) ci (⟨o + tt.val - 128, by have := tt.isLt; omega⟩ : Fin 2048)) := by
  have hb : o + tt.val < 2176 := by have := tt.isLt; omega
  rw [shapeCast_self]
  refine (extractStridedSlice_apply ![0, o] _ h (ix2 ci tt) (ix2 ci (⟨o + tt.val, hb⟩ : Fin 2176)) (fun a => by
    match a with
    | ⟨0, _⟩ => show ci.val = 0 + ci.val; omega
    | ⟨1, _⟩ => rfl)).trans ?_
  exact pay1_right i x0 x1 ci ⟨o + tt.val, hb⟩ hge

/-- The first slab (tap 0) reads two columns back: at the tile's first two columns it reads the last
    two of the 128 columns before the tile, or the pad's zeros in the first tile of a row. -/
theorem pay2_left (i : grid0.Coords) (x0 : Vec Ideal S1x256x2048 .f32) (x1 : Vec Ideal S1x256x128 .f32)
    (ci : Fin 256) (tt : Fin 2048) (h : tt.val < 2) :
    k0_pay2 (F := Ideal) i x0 x1 (ix2 ci tt)
      = if (i 1).val = 0 then 0 else x1 (ix3 (0 : Fin 1) ci (⟨126 + tt.val, by omega⟩ : Fin 128)) := by
  unfold k0_pay2
  exact slab_left 126 _ _ i x0 x1 ci tt (by omega)

theorem pay2_right (i : grid0.Coords) (x0 : Vec Ideal S1x256x2048 .f32) (x1 : Vec Ideal S1x256x128 .f32)
    (ci : Fin 256) (tt : Fin 2048) (h : 2 ≤ tt.val) :
    k0_pay2 (F := Ideal) i x0 x1 (ix2 ci tt)
      = x0 (ix3 (0 : Fin 1) ci (⟨tt.val - 2, by have := tt.isLt; omega⟩ : Fin 2048)) := by
  unfold k0_pay2
  refine (slab_right 126 (by omega) _ _ i x0 x1 ci tt (by omega)).trans ?_
  exact congrArg x0 (congrArg (ix3 (0 : Fin 1) ci) (Fin.ext (by show 126 + tt.val - 128 = tt.val - 2; omega)))

/-- The second slab (tap 1) reads one column back. -/
theorem pay3_left (i : grid0.Coords) (x0 : Vec Ideal S1x256x2048 .f32) (x1 : Vec Ideal S1x256x128 .f32)
    (ci : Fin 256) (tt : Fin 2048) (h : tt.val < 1) :
    k0_pay3 (F := Ideal) i x0 x1 (ix2 ci tt)
      = if (i 1).val = 0 then 0 else x1 (ix3 (0 : Fin 1) ci (⟨127 + tt.val, by omega⟩ : Fin 128)) := by
  unfold k0_pay3
  exact slab_left 127 _ _ i x0 x1 ci tt (by omega)

theorem pay3_right (i : grid0.Coords) (x0 : Vec Ideal S1x256x2048 .f32) (x1 : Vec Ideal S1x256x128 .f32)
    (ci : Fin 256) (tt : Fin 2048) (h : 1 ≤ tt.val) :
    k0_pay3 (F := Ideal) i x0 x1 (ix2 ci tt)
      = x0 (ix3 (0 : Fin 1) ci (⟨tt.val - 1, by have := tt.isLt; omega⟩ : Fin 2048)) := by
  unfold k0_pay3
  refine (slab_right 127 (by omega) _ _ i x0 x1 ci tt (by omega)).trans ?_
  exact congrArg x0 (congrArg (ix3 (0 : Fin 1) ci) (Fin.ext (by show 127 + tt.val - 128 = tt.val - 1; omega)))

/-- The third slab (tap 2) is the tile itself. -/
theorem pay4_apply (i : grid0.Coords) (x0 : Vec Ideal S1x256x2048 .f32) (x1 : Vec Ideal S1x256x128 .f32)
    (ci : Fin 256) (tt : Fin 2048) :
    k0_pay4 (F := Ideal) i x0 x1 (ix2 ci tt) = x0 (ix3 (0 : Fin 1) ci tt) := by
  unfold k0_pay4
  refine (slab_right 128 (by omega) _ _ i x0 x1 ci tt (by omega)).trans ?_
  exact congrArg x0 (congrArg (ix3 (0 : Fin 1) ci) (Fin.ext (by show 128 + tt.val - 128 = tt.val; omega)))

/-- The three slabs in one statement: slab `k` at column `tt` reads column `tt + k - 2` of the
    row made of the 128 columns before the tile followed by the tile. -/
theorem pay2_apply (i : grid0.Coords) (x0 : Vec Ideal S1x256x2048 .f32) (x1 : Vec Ideal S1x256x128 .f32)
    (ci : Fin 256) (tt : Fin 2048) :
    k0_pay2 (F := Ideal) i x0 x1 (ix2 ci tt)
      = if h : tt.val < 2 then
          (if (i 1).val = 0 then 0 else x1 (ix3 (0 : Fin 1) ci (⟨126 + tt.val, by omega⟩ : Fin 128)))
        else x0 (ix3 (0 : Fin 1) ci (⟨tt.val - 2, by have := tt.isLt; omega⟩ : Fin 2048)) := by
  by_cases h : tt.val < 2
  · rw [dif_pos h]; exact pay2_left i x0 x1 ci tt h
  · rw [dif_neg h]; exact pay2_right i x0 x1 ci tt (by omega)

theorem pay3_apply (i : grid0.Coords) (x0 : Vec Ideal S1x256x2048 .f32) (x1 : Vec Ideal S1x256x128 .f32)
    (ci : Fin 256) (tt : Fin 2048) :
    k0_pay3 (F := Ideal) i x0 x1 (ix2 ci tt)
      = if h : tt.val < 1 then
          (if (i 1).val = 0 then 0 else x1 (ix3 (0 : Fin 1) ci (⟨127 + tt.val, by omega⟩ : Fin 128)))
        else x0 (ix3 (0 : Fin 1) ci (⟨tt.val - 1, by have := tt.isLt; omega⟩ : Fin 2048)) := by
  by_cases h : tt.val < 1
  · rw [dif_pos h]; exact pay3_left i x0 x1 ci tt h
  · rw [dif_neg h]; exact pay3_right i x0 x1 ci tt (by omega)

open Idealize.ShloMosaic.TcCoe
open Idealize.SL Idealize.SL.Sem

section HostArrays

variable (m : (ℓ : Loc nD τ sig) → Buf (Elt Ideal) ℓ)

/-- The folded weight as the grid finds it: the launched weight with its last two axes swapped, then
    its last two axes merged. -/
theorem after_main_v1 (c : Dev nD) :
    (StableHlo.after (hostOps0 (F := Ideal)) (fun b => m (c, b)) (Proc.devRef .tc main_v1) : S256x768.Idx → EReal)
      = shapeCast S256x768
          (transpose S256x3x256 [0, 2, 1] (m ((c : Thread nD τ).loc main_arg1) : S256x256x3.Idx → EReal)
            transposes_S256x256x3_S256x3x256_0_2_1)
          shapeCasts_S256x3x256_S256x768 := by
  dsimp only [hostOps0]
  after_results
  rfl

/-- Entry (co, j) of the folded weight is weight (co, j mod 256, j div 256): position j = k·256 + ci holds
    tap k of input channel ci. -/
theorem after_main_v1_apply (c : Dev nD) (co : Fin 256) (j : Fin 768) :
    (StableHlo.after (hostOps0 (F := Ideal)) (fun b => m (c, b)) (Proc.devRef .tc main_v1) : S256x768.Idx → EReal) (ix2 co j)
      = (m ((c : Thread nD τ).loc main_arg1) : S256x256x3.Idx → EReal)
          (ix3 co (⟨j.val % 256, Nat.mod_lt _ (by norm_num)⟩ : Fin 256) (⟨j.val / 256, by have := j.isLt; omega⟩ : Fin 3)) := by
  have hk : j.val / 256 < 3 := by have := j.isLt; omega
  have hc : j.val % 256 < 256 := Nat.mod_lt _ (by norm_num)
  rw [after_main_v1]
  refine (shapeCast_apply _ _ (ix2 co j) (ix3 co (⟨j.val / 256, hk⟩ : Fin 3) (⟨j.val % 256, hc⟩ : Fin 256)) (by
    rw [Shape.rowMajor_val_two, Shape.rowMajor_val_three]
    show (co.val * 3 + j.val / 256) * 256 + j.val % 256 = co.val * 768 + j.val
    omega)).trans ?_
  exact transpose_apply _ _ _ (ix3 co (⟨j.val / 256, hk⟩ : Fin 3) (⟨j.val % 256, hc⟩ : Fin 256))
    (ix3 co (⟨j.val % 256, hc⟩ : Fin 256) (⟨j.val / 256, hk⟩ : Fin 3)) (fun b => by
      match b with
      | ⟨0, _⟩ => rfl
      | ⟨1, _⟩ => rfl
      | ⟨2, _⟩ => rfl)

/-- The bias column as the grid finds it: the launched bias with a unit axis added. -/
theorem after_main_v2 (c : Dev nD) :
    (StableHlo.after (hostOps0 (F := Ideal)) (fun b => m (c, b)) (Proc.devRef .tc main_v2) : S256x1.Idx → EReal)
      = shapeCast S256x1 (m ((c : Thread nD τ).loc main_arg2) : S256.Idx → EReal) shapeCasts_S256_S256x1 := by
  dsimp only [hostOps0]
  after_results
  rfl

/-- Entry (co, 0) of the bias column is bias (co). -/
theorem after_main_v2_apply (c : Dev nD) (co : Fin 256) :
    (StableHlo.after (hostOps0 (F := Ideal)) (fun b => m (c, b)) (Proc.devRef .tc main_v2) : S256x1.Idx → EReal) (ix2 co (0 : Fin 1))
      = (m ((c : Thread nD τ).loc main_arg2) : S256.Idx → EReal) (ix1 co) := by
  rw [after_main_v2]
  exact shapeCast_apply _ _ (ix2 co (0 : Fin 1)) (ix1 co) (by
    rw [Shape.rowMajor_val_one, Shape.rowMajor_val_two]
    show co.val = co.val * 1 + 0
    omega)

/-- No host operation writes the input: the grid finds it as launched. -/
theorem after_main_arg0 (c : Dev nD) :
    StableHlo.after (hostOps0 (F := Ideal)) (fun b => m (c, b)) (Proc.devRef .tc main_arg0)
      = m ((c : Thread nD τ).loc main_arg0) := by
  dsimp only [hostOps0]
  after_results

end HostArrays

end Cert.ReferenceIdeal.ConvPayload

end
-- ==== Proof.RefValue.lean ====
/-
  What the tiled reference computes: its result array is the convolution of its three arguments.

  At grid point `t` (batch row `b = t / 4`, time tile `q = t % 4`) the body is handed the tile `x[b, ·, 2048 q + ·]`, the
  band of 128 columns ending where the tile begins, the folded weight `w2[co, k · 256 + ci] = weight[co, ci, k]` and the
  bias column. Row `k · 256 + ci` of the scratch is then the tile's channel `ci` shifted right by `2 - k` columns — so its
  column `tt` is the tap's read `x[b, ci, 2048 q + tt + k - 2]`, zero left of the sequence — and the product with the
  folded weight sums, over the 768 folded positions, exactly the terms of the double sum over taps and channels. The
  32 blocks written back tile the result.
-/
import proofs.«154550_g2000606973283855_pallasbulk_306_5_alg».proof.Proof.RefTiles
import proofs.«154550_g2000606973283855_pallasbulk_306_5_alg».proof.Proof.CausalConv
import proofs.«154550_g2000606973283855_pallasbulk_306_5_alg».proof.Proof.RefPayload
import Idealize.ShloMosaic.Lib.ValueIdx
import Idealize.ShloMosaic.Lib.Pipeline.Value
import Idealize.ShloMosaic.PureOps.Ideal.Laws

set_option maxRecDepth 16384

noncomputable section

namespace Cert.ReferenceIdeal.ConvValue

open Cert.ReferenceIdeal Cert.ReferenceIdeal.Gen Cert.ReferenceIdeal.Tiles Cert.CausalConv
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The grid's geometry -/

/-- Point `t` of the 32 is batch row `t / 4`, time tile `t % 4`: the tile's and the output's blocks sit there, the
    band's block is the 128 columns before the tile (the first band at the first tile), the folded weight and the bias
    column are whole. -/
theorem idx_facts : ∀ t : Fin cfg0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = 0 ∧ win0_1.index t (2 : Fin 3) = 16 * (t.val % 4) - 1
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 4 ∧ win0_4.index t (1 : Fin 3) = 0 ∧ win0_4.index t (2 : Fin 3) = t.val % 4
    ∧ (grid0.coords t (1 : Fin 2)).val = t.val % 4 :=
  (by decide +kernel : ∀ t : Fin grid0.N, _)

/-- The tile's block at point `t`, read at an index. -/
theorem tile_apply (c : Dev nD) (t : Fin cfg0.N) (ci : Fin 256) (u : Fin 2048) :
    (iblk m c 0 t : Vec Ideal S1x256x2048 .f32) (ix3 0 ci u)
      = V m c main_arg0 (ix3 ⟨t.val / 4, by have := t.isLt; have h32 : cfg0.N = 32 := N_0; omega⟩ ci ⟨2048 * (t.val % 4) + u.val, by have := u.isLt; omega⟩) := by
  obtain ⟨e0, e1, e2, -⟩ := idx_facts t
  show V m c main_arg0 (((cfg0.win 0).blk t).view.emb (ix3 0 ci u)) = _
  congr 1
  funext a; apply Fin.ext
  match a with
  | ⟨0, _⟩ => show win0_0.index t (0 : Fin 3) * 1 + 1 * 0 = t.val / 4; omega
  | ⟨1, _⟩ => show win0_0.index t (1 : Fin 3) * 256 + 1 * ci.val = ci.val; omega
  | ⟨2, _⟩ => show win0_0.index t (2 : Fin 3) * 2048 + 1 * u.val = 2048 * (t.val % 4) + u.val; omega

/-- The band's block at point `t`, read at an index. -/
theorem band_apply (c : Dev nD) (t : Fin cfg0.N) (ci : Fin 256) (l : Fin 128) :
    (iblk m c 1 t : Vec Ideal S1x256x128 .f32) (ix3 0 ci l)
      = V m c main_arg0 (ix3 ⟨t.val / 4, by have := t.isLt; have h32 : cfg0.N = 32 := N_0; omega⟩ ci ⟨128 * (16 * (t.val % 4) - 1) + l.val, by have := l.isLt; omega⟩) := by
  obtain ⟨-, -, -, e0, e1, e2, -⟩ := idx_facts t
  show V m c main_arg0 (((cfg0.win 1).blk t).view.emb (ix3 0 ci l)) = _
  congr 1
  funext a; apply Fin.ext
  match a with
  | ⟨0, _⟩ => show win0_1.index t (0 : Fin 3) * 1 + 1 * 0 = t.val / 4; omega
  | ⟨1, _⟩ => show win0_1.index t (1 : Fin 3) * 256 + 1 * ci.val = ci.val; omega
  | ⟨2, _⟩ => show win0_1.index t (2 : Fin 3) * 128 + 1 * l.val = 128 * (16 * (t.val % 4) - 1) + l.val; omega

/-- The folded weight's block is the whole array. -/
theorem weight_apply (c : Dev nD) (t : Fin cfg0.N) (co : Fin 256) (j : Fin 768) :
    (iblk m c 2 t : Vec Ideal S256x768 .f32) (ix2 co j) = V m c main_v1 (ix2 co j) := by
  obtain ⟨-, -, -, -, -, -, e0, e1, -⟩ := idx_facts t
  show V m c main_v1 (((cfg0.win 2).blk t).view.emb (ix2 co j)) = _
  congr 1
  funext a; apply Fin.ext
  match a with
  | ⟨0, _⟩ => show win0_2.index t (0 : Fin 2) * 256 + 1 * co.val = co.val; omega
  | ⟨1, _⟩ => show win0_2.index t (1 : Fin 2) * 768 + 1 * j.val = j.val; omega

/-- The bias column's block is the whole array. -/
theorem bias_apply (c : Dev nD) (t : Fin cfg0.N) (co : Fin 256) :
    (iblk m c 3 t : Vec Ideal S256x1 .f32) (ix2 co 0) = V m c main_v2 (ix2 co 0) := by
  obtain ⟨-, -, -, -, -, -, -, -, e0, e1, -⟩ := idx_facts t
  show V m c main_v2 (((cfg0.win 3).blk t).view.emb (ix2 co 0)) = _
  congr 1
  funext a; apply Fin.ext
  match a with
  | ⟨0, _⟩ => show win0_3.index t (0 : Fin 2) * 256 + 1 * co.val = co.val; omega
  | ⟨1, _⟩ => show win0_3.index t (1 : Fin 2) * 1 + 1 * 0 = 0; omega

/-- An index of the result is in point `t`'s block iff each coordinate is in the block's range on its axis. -/
theorem mem_blk (t : Fin cfg0.N) (i : S8x256x8192.Idx) :
    i ∈ ((cfg0.win 4).blk t).view.set ↔ ∀ a : Fin 3, win0_4.index t a * S1x256x2048.size a ≤ (i a).val ∧ (i a).val < win0_4.index t a * S1x256x2048.size a + S1x256x2048.size a := by
  show i ∈ ((View.whole main_v3).slice (win0_4.rect t)).set ↔ _
  rw [View.set_slice_whole, Rect.mem_set_unit]
  exact Iff.rfl

/-- Every index of the result lies in the block of the point of its batch row and time tile. -/
theorem cover (i : S8x256x8192.Idx) : ∃ t : Fin cfg0.N, (cfg0.win 4).flush t = true ∧ i ∈ ((cfg0.win 4).blk t).view.set := by
  have h0 : (i 0).val < 8 := (i 0).isLt
  have h1 : (i 1).val < 256 := (i 1).isLt
  have h2 : (i 2).val < 8192 := (i 2).isLt
  let t : Fin cfg0.N := ⟨4 * (i 0).val + (i 2).val / 2048, by have h32 : cfg0.N = 32 := N_0; omega⟩
  have ht : t.val = 4 * (i 0).val + (i 2).val / 2048 := rfl
  obtain ⟨-, -, -, -, -, -, -, -, -, -, e0, e1, e2, -⟩ := idx_facts t
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 2048 ≤ (i 2).val ∧ (i 2).val < win0_4.index t (2 : Fin 3) * 2048 + 2048; omega

/-! ## One tile -/

theorem hz2 : (![0, 0] : Fin 2 → Nat) = fun _ => 0 := funext fun a => by fin_cases a <;> rfl
theorem hz3 : (![0, 0, 0] : Fin 3 → Nat) = fun _ => 0 := funext fun a => by fin_cases a <;> rfl

/-- Column `tt` of time tile `q` is column `2048 q + tt` of the sequence. -/
abbrev col (q : Fin 4) (tt : Fin 2048) : Fin 8192 := ⟨2048 * q.val + tt.val, by have := q.isLt; have := tt.isLt; omega⟩

/-- What the scratch holds once the three copies are stored: row `j` is copy `j / 256` of input channel `j % 256`. -/
def scratchSpec (q : Fin 4) (b : Fin 8) (X : FVec Ideal SX .f32) : S768x2048.Idx → EReal := fun y =>
  tap X b ⟨(y 0).val % 256, Nat.mod_lt _ (by norm_num)⟩ (col q (y 1)) ⟨(y 0).val / 256, by have : (y 0).val < 768 := (y 0).isLt; omega⟩

section Tile

variable (i : grid0.Coords) (q : Fin 4) (hi : (i 1).val = q.val) (b : Fin 8)
  (X : FVec Ideal SX .f32)
  (x0 : Vec Ideal S1x256x2048 .f32) (x1 : Vec Ideal S1x256x128 .f32)
  (h0 : ∀ (ci : Fin 256) (u : Fin 2048), x0 (ix3 0 ci u) = X (ix3 b ci ⟨2048 * q.val + u.val, by have := q.isLt; have := u.isLt; omega⟩))
  (h1 : ∀ (ci : Fin 256) (l : Fin 128), x1 (ix3 0 ci l) = X (ix3 b ci ⟨128 * (16 * q.val - 1) + l.val, by have := q.isLt; have := l.isLt; omega⟩))

include hi h0 h1 in
/-- The first copy, shifted by two columns, is tap 0's read: on the first tile its first two columns are the causal
    pad's zeros, on a later tile the last two columns of the band before the tile. -/
theorem copy0_eq (ci : Fin 256) (tt : Fin 2048) :
    k0_pay2 (F := Ideal) i x0 x1 (ix2 ci tt) = tap X b ci (col q tt) 0 := by
  have hq := q.isLt; have htt := tt.isLt
  unfold tap
  by_cases h2 : tt.val < 2
  · rw [ConvPayload.pay2_left i x0 x1 ci tt h2]
    by_cases hq0 : q.val = 0
    · rw [if_pos (by omega), if_pos (by show 2048 * q.val + tt.val + 0 < 2; omega)]
    · rw [if_neg (by omega), if_neg (by show ¬ (2048 * q.val + tt.val + 0 < 2); omega), h1]
      exact congrArg (fun z => X (ix3 b ci z)) (Fin.ext (by show 128 * (16 * q.val - 1) + (126 + tt.val) = 2048 * q.val + tt.val + 0 - 2; omega))
  · rw [ConvPayload.pay2_right i x0 x1 ci tt (by omega), if_neg (by show ¬ (2048 * q.val + tt.val + 0 < 2); omega), h0]
    exact congrArg (fun z => X (ix3 b ci z)) (Fin.ext (by show 2048 * q.val + (tt.val - 2) = 2048 * q.val + tt.val + 0 - 2; omega))

include hi h0 h1 in
/-- The second copy, shifted by one column, is tap 1's read. -/
theorem copy1_eq (ci : Fin 256) (tt : Fin 2048) :
    k0_pay3 (F := Ideal) i x0 x1 (ix2 ci tt) = tap X b ci (col q tt) 1 := by
  have hq := q.isLt; have htt := tt.isLt
  unfold tap
  by_cases h2 : tt.val < 1
  · rw [ConvPayload.pay3_left i x0 x1 ci tt h2]
    by_cases hq0 : q.val = 0
    · rw [if_pos (by omega), if_pos (by show 2048 * q.val + tt.val + 1 < 2; omega)]
    · rw [if_neg (by omega), if_neg (by show ¬ (2048 * q.val + tt.val + 1 < 2); omega), h1]
      exact congrArg (fun z => X (ix3 b ci z)) (Fin.ext (by show 128 * (16 * q.val - 1) + (127 + tt.val) = 2048 * q.val + tt.val + 1 - 2; omega))
  · rw [ConvPayload.pay3_right i x0 x1 ci tt (by omega), if_neg (by show ¬ (2048 * q.val + tt.val + 1 < 2); omega), h0]
    exact congrArg (fun z => X (ix3 b ci z)) (Fin.ext (by show 2048 * q.val + (tt.val - 1) = 2048 * q.val + tt.val + 1 - 2; omega))

include h0 in
/-- The third copy is the tile itself: tap 2's read. -/
theorem copy2_eq (ci : Fin 256) (tt : Fin 2048) :
    k0_pay4 (F := Ideal) i x0 x1 (ix2 ci tt) = tap X b ci (col q tt) 2 := by
  have hq := q.isLt; have htt := tt.isLt
  unfold tap
  rw [ConvPayload.pay4_apply, if_neg (by show ¬ (2048 * q.val + tt.val + 2 < 2); omega), h0]
  exact congrArg (fun z => X (ix3 b ci z)) (Fin.ext (by show 2048 * q.val + tt.val = 2048 * q.val + tt.val + 2 - 2; omega))

include hi h0 h1 in
theorem scratch_apply (y : S768x2048.Idx) : scratchAfter (F := Ideal) i x0 x1 y = scratchSpec q b X y := by
  unfold scratchAfter
  refine View.canon_apply_of_pieces (scratchSpec q b X) (slabs i x0 x1) ?_ y (slabs_cover i x0 x1 y)
  intro p hp x
  simp only [slabs, List.mem_cons, List.mem_nil_iff, or_false] at hp
  rcases hp with rfl | rfl | rfl
  · obtain ⟨ci, tt, rfl⟩ : ∃ (ci : Fin 256) (tt : Fin 2048), x = ix2 ci tt := ⟨x 0, x 1, eq_ix2 x⟩
    have hci := ci.isLt
    show k0_pay4 (F := Ideal) i (View.ld x0 rTile) (View.ld x1 rBand) (ix2 ci tt) = scratchSpec q b X (rSlab2.emb (ix2 ci tt))
    rw [View.ld_unit_zero (S := S1x256x2048) hz3, View.ld_unit_zero (S := S1x256x128) hz3, copy2_eq i q hi b X x0 x1 h0 ci tt]
    unfold scratchSpec
    have e0 : ((rSlab2.emb (ix2 ci tt)) 0).val = 512 + 1 * ci.val := rfl
    have e1 : ((rSlab2.emb (ix2 ci tt)) 1).val = 0 + 1 * tt.val := rfl
    congr 1
    · exact Fin.ext (by show ci.val = ((rSlab2.emb (ix2 ci tt)) 0).val % 256; rw [e0]; omega)
    · exact Fin.ext (by show 2048 * q.val + tt.val = 2048 * q.val + ((rSlab2.emb (ix2 ci tt)) 1).val; rw [e1]; omega)
    · exact Fin.ext (by show 2 = ((rSlab2.emb (ix2 ci tt)) 0).val / 256; rw [e0]; omega)
  · obtain ⟨ci, tt, rfl⟩ : ∃ (ci : Fin 256) (tt : Fin 2048), x = ix2 ci tt := ⟨x 0, x 1, eq_ix2 x⟩
    have hci := ci.isLt
    show k0_pay3 (F := Ideal) i (View.ld x0 rTile) (View.ld x1 rBand) (ix2 ci tt) = scratchSpec q b X (rSlab1.emb (ix2 ci tt))
    rw [View.ld_unit_zero (S := S1x256x2048) hz3, View.ld_unit_zero (S := S1x256x128) hz3, copy1_eq i q hi b X x0 x1 h0 h1 ci tt]
    unfold scratchSpec
    have e0 : ((rSlab1.emb (ix2 ci tt)) 0).val = 256 + 1 * ci.val := rfl
    have e1 : ((rSlab1.emb (ix2 ci tt)) 1).val = 0 + 1 * tt.val := rfl
    congr 1
    · exact Fin.ext (by show ci.val = ((rSlab1.emb (ix2 ci tt)) 0).val % 256; rw [e0]; omega)
    · exact Fin.ext (by show 2048 * q.val + tt.val = 2048 * q.val + ((rSlab1.emb (ix2 ci tt)) 1).val; rw [e1]; omega)
    · exact Fin.ext (by show 1 = ((rSlab1.emb (ix2 ci tt)) 0).val / 256; rw [e0]; omega)
  · obtain ⟨ci, tt, rfl⟩ : ∃ (ci : Fin 256) (tt : Fin 2048), x = ix2 ci tt := ⟨x 0, x 1, eq_ix2 x⟩
    have hci := ci.isLt
    show k0_pay2 (F := Ideal) i (View.ld x0 rTile) (View.ld x1 rBand) (ix2 ci tt) = scratchSpec q b X (rSlab0.emb (ix2 ci tt))
    rw [View.ld_unit_zero (S := S1x256x2048) hz3, View.ld_unit_zero (S := S1x256x128) hz3, copy0_eq i q hi b X x0 x1 h0 h1 ci tt]
    unfold scratchSpec
    have e0 : ((rSlab0.emb (ix2 ci tt)) 0).val = 0 + 1 * ci.val := rfl
    have e1 : ((rSlab0.emb (ix2 ci tt)) 1).val = 0 + 1 * tt.val := rfl
    congr 1
    · exact Fin.ext (by show ci.val = ((rSlab0.emb (ix2 ci tt)) 0).val % 256; rw [e0]; omega)
    · exact Fin.ext (by show 2048 * q.val + tt.val = 2048 * q.val + ((rSlab0.emb (ix2 ci tt)) 1).val; rw [e1]; omega)
    · exact Fin.ext (by show 0 = ((rSlab0.emb (ix2 ci tt)) 0).val / 256; rw [e0]; omega)

variable (W : FVec Ideal SW .f32) (B : FVec Ideal SB .f32)
  (x2 : Vec Ideal S256x768 .f32) (x3 : Vec Ideal S256x1 .f32)
  (h2 : ∀ (co : Fin 256) (j : Fin 768), x2 (ix2 co j) = W (ix3 co ⟨j.val % 256, Nat.mod_lt _ (by norm_num)⟩ ⟨j.val / 256, by have := j.isLt; omega⟩))
  (h3 : ∀ co : Fin 256, x3 (ix2 co 0) = B (ix1 co))

include hi h0 h1 h2 h3 in
/-- The output tile is the convolution at the tile's columns: the one contraction over the 768 folded positions is the
    double sum over taps and channels. -/
theorem tile_value (co : Fin 256) (tt : Fin 2048) :
    outTile (F := Ideal) i x0 x1 x2 x3 (ix3 0 co tt) = conv X W B (ix3 b co (col q tt)) := by
  unfold outTile
  rw [View.canon_unit_zero hz3]
  rw [View.ld_unit_zero (S := S256x768) hz2, View.ld_unit_zero (S := S768x2048) hz2, View.ld_unit_zero (S := S256x1) hz2]
  rw [ConvPayload.pay5_apply, conv_apply, h3,
    ← taps_folded (fun k ci => W (ix3 co ci k) * tap X b ci (col q tt) k)]
  congr 1
  refine Finset.sum_congr rfl fun j _ => ?_
  rw [h2, scratch_apply i q hi b X x0 x1 h0 h1]
  rfl

end Tile

/-- The folded weight as the region finds it: entry `(co, k · 256 + ci)` is the weight's `(co, ci, k)`. -/
theorem weight_folded (c : Dev nD) (co : Fin 256) (j : Fin 768) :
    V m c main_v1 (ix2 co j) = m ((c : Thread nD τ).loc main_arg1) (ix3 co ⟨j.val % 256, Nat.mod_lt _ (by norm_num)⟩ ⟨j.val / 256, by have := j.isLt; omega⟩) :=
  ConvPayload.after_main_v1_apply m c co j

/-- The bias column as the region finds it. -/
theorem bias_column (c : Dev nD) (co : Fin 256) :
    V m c main_v2 (ix2 co 0) = m ((c : Thread nD τ).loc main_arg2) (ix1 co) :=
  ConvPayload.after_main_v2_apply m c co

/-! ## The result array -/

/-- What a point writes back is its block of the convolution of the three arguments. -/
theorem flushed_eq (c : Dev nD) (t : Fin cfg0.N) :
    (dats m 0 c).flushed 4 t = ((cfg0.win 4).blk t).view.read (Elt Ideal)
      (conv (m ((c : Thread nD τ).loc main_arg0)) (m ((c : Thread nD τ).loc main_arg1)) (m ((c : Thread nD τ).loc main_arg2))) := by
  show (cfg0.win 4).cut (grid0.coords t) ((dats m 0 c).after 4 t) = _
  rw [after_4]
  have ht := t.isLt; have h32 : cfg0.N = 32 := N_0
  obtain ⟨-, -, -, -, -, -, -, -, -, -, e0, e1, e2, ec⟩ := idx_facts t
  funext j
  obtain ⟨a, co, tt, rfl⟩ : ∃ (a : Fin 1) (co : Fin 256) (tt : Fin 2048), j = ix3 a co tt := ⟨j 0, j 1, j 2, eq_ix3 j⟩
  obtain rfl : a = 0 := Subsingleton.elim _ _
  show outTile (F := Ideal) (grid0.coords t) (iblk m c 0 t) (iblk m c 1 t) (iblk m c 2 t) (iblk m c 3 t) (ix3 0 co tt)
    = conv (m ((c : Thread nD τ).loc main_arg0)) (m ((c : Thread nD τ).loc main_arg1)) (m ((c : Thread nD τ).loc main_arg2)) (((cfg0.win 4).blk t).view.emb (ix3 0 co tt))
  have he : ((cfg0.win 4).blk t).view.emb (ix3 0 co tt)
      = ix3 (⟨t.val / 4, by omega⟩ : Fin 8) co (col (⟨t.val % 4, by omega⟩ : Fin 4) tt) := by
    funext a; apply Fin.ext
    match a with
    | ⟨0, _⟩ => show win0_4.index t (0 : Fin 3) * 1 + 1 * 0 = t.val / 4; omega
    | ⟨1, _⟩ => show win0_4.index t (1 : Fin 3) * 256 + 1 * co.val = co.val; omega
    | ⟨2, _⟩ => show win0_4.index t (2 : Fin 3) * 2048 + 1 * tt.val = 2048 * (t.val % 4) + tt.val; omega
  rw [he]
  refine tile_value (grid0.coords t) (⟨t.val % 4, by omega⟩ : Fin 4) ec (⟨t.val / 4, by omega⟩ : Fin 8) (m ((c : Thread nD τ).loc main_arg0))
    (iblk m c 0 t) (iblk m c 1 t) ?_ ?_ (m ((c : Thread nD τ).loc main_arg1)) (m ((c : Thread nD τ).loc main_arg2))
    (iblk m c 2 t) (iblk m c 3 t) ?_ ?_ co tt
  · intro ci u; rw [tile_apply m c t ci u, V_main_arg0]
  · intro ci l; rw [band_apply m c t ci l, V_main_arg0]
  · intro co j; rw [weight_apply m c t co j]; exact weight_folded m c co j
  · intro co; rw [bias_apply m c t co]; exact bias_column m c co

/-- The blocks tile the result, so the result is the convolution. -/
theorem final (c : Dev nD) : (dats m 0 c).arrAt 4 cfg0.N
    = conv (m ((c : Thread nD τ).loc main_arg0)) (m ((c : Thread nD τ).loc main_arg1)) (m ((c : Thread nD τ).loc main_arg2)) :=
  (dats m 0 c).arrAt_eq_of_cover 4 _ (fun t _ => flushed_eq m c t) cover

/-- The tiled program runs to the convolution of its arguments, which it leaves as they were. -/
theorem run : θ_run defs (onTc (τ := τ) (main (F := Ideal))) ⟨m, fun _ => 0, ρ⟩ fun r => ∀ c : Dev nD,
      r.2.mem ((c : Thread nD τ).loc main_v3) = conv (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 4).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.ReferenceIdeal.ConvValue

end
-- ==== Proof.lean ====
/-
  A causal convolution with three taps, computed two ways, is one function of its arguments.

  Both programs compute, for a batch row `b`, an output channel `co` and a time step `t`,
      out[b, co, t] = (∑ k < 3, ∑ ci < 256, weight[co, ci, k] · x[b, ci, t + k - 2]) + bias[co],
  a read left of the sequence being the zero of the causal pad (`Cert.CausalConv.conv`).

  The kernel takes one whole batch row per grid point and adds three products of a 256 × 256 slab of the weight with
  the row shifted right by two, one and no columns, zeros entering on the left, in the order last tap, first tap,
  middle tap. The reference cuts each row into four tiles of 2048 columns, copies each tile three times into a scratch
  with the same shifts — the columns entering on the left taken from the 128 columns before the tile, or zeros at the
  first tile — and multiplies the weight, its taps folded into one axis of 768, by the scratch in one product. On the
  extended reals the two differ by a regrouping and a reordering of one finite sum of a commutative monoid, and by
  products with the pad's zero, which are zero whatever the weight: so they agree on every input, and the
  precondition's finiteness is never used.

  The kernel's and its idealization's frames are the generated ones. The reference is a tiled kernel whose two input
  windows read one array; its frame and its value are in `Proof/RefTiles.lean` and `Proof/RefValue.lean`, the kernel's
  value in `Proof/KernelValue.lean`. The idealization rewrote nothing, so there is nothing to preserve.
-/
import proofs.«154550_g2000606973283855_pallasbulk_306_5_alg».proof.Defs
import proofs.«154550_g2000606973283855_pallasbulk_306_5_alg».proof.Proof.Gen.Kernel
import proofs.«154550_g2000606973283855_pallasbulk_306_5_alg».proof.Proof.Gen.Kernel.Skeleton
import proofs.«154550_g2000606973283855_pallasbulk_306_5_alg».proof.Proof.Gen.Kernel.Launch
import proofs.«154550_g2000606973283855_pallasbulk_306_5_alg».proof.Proof.Gen.Kernel.Points
import proofs.«154550_g2000606973283855_pallasbulk_306_5_alg».proof.Proof.Gen.Kernel.Frame
import proofs.«154550_g2000606973283855_pallasbulk_306_5_alg».proof.Proof.Gen.KernelIdeal
import proofs.«154550_g2000606973283855_pallasbulk_306_5_alg».proof.Proof.Gen.KernelIdeal.Skeleton
import proofs.«154550_g2000606973283855_pallasbulk_306_5_alg».proof.Proof.Gen.KernelIdeal.Launch
import proofs.«154550_g2000606973283855_pallasbulk_306_5_alg».proof.Proof.Gen.KernelIdeal.Points
import proofs.«154550_g2000606973283855_pallasbulk_306_5_alg».proof.Proof.Gen.KernelIdeal.Frame
import proofs.«154550_g2000606973283855_pallasbulk_306_5_alg».proof.Proof.Gen.ReferenceIdeal
import proofs.«154550_g2000606973283855_pallasbulk_306_5_alg».proof.Proof.Gen.ReferenceIdeal.Skeleton
import proofs.«154550_g2000606973283855_pallasbulk_306_5_alg».proof.Proof.Gen.ReferenceIdeal.Launch
import proofs.«154550_g2000606973283855_pallasbulk_306_5_alg».proof.Proof.Gen.ReferenceIdeal.Points
import proofs.«154550_g2000606973283855_pallasbulk_306_5_alg».proof.Proof.Gen.Pre_finite_inputs
import proofs.«154550_g2000606973283855_pallasbulk_306_5_alg».proof.Proof.KernelValue
import proofs.«154550_g2000606973283855_pallasbulk_306_5_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Tiles.frame m ρ

/-- Both programs end with the convolution of their arguments in their result array; the arguments agree. -/
theorem algebraic : Cert.algebraic_KernelIdeal_ReferenceIdeal := by
  intro m ρ m' ρ' _ hagree
  refine ⟨_, Cert.KernelIdeal.ConvValue.run m ρ, ?_⟩
  refine (θ_run Cert.ReferenceIdeal.defs _ _).mono (fun r h c => ⟨(h c).1.trans ?_, (h c).2⟩)
    (Cert.ReferenceIdeal.ConvValue.run m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
